-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S1433x32 : Shape := ⟨2, ![1433, 32]⟩
abbrev S32 : Shape := ⟨1, ![32]⟩
abbrev S32x16 : Shape := ⟨2, ![32, 16]⟩
abbrev S16 : Shape := ⟨1, ![16]⟩
abbrev S16x1433 : Shape := ⟨2, ![16, 1433]⟩
abbrev S1433 : Shape := ⟨1, ![1433]⟩
abbrev S2x3200000 : Shape := ⟨2, ![2, 3200000]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x32 : S_.BroadcastsInDim S1433x32 (![] : Fin 0 → Fin S1433x32.rank)
  reducesTo_S1433x32_S_d0_1 : S1433x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1433 : S_.BroadcastsInDim S16x1433 (![] : Fin 0 → Fin S16x1433.rank)
  reducesTo_S16x1433_S_d0_1 : S16x1433.ReducesTo [0, 1] S_
  bcast_S_S1433 : S_.BroadcastsInDim S1433 (![] : Fin 0 → Fin S1433.rank)
  reducesTo_S1433_S_d0 : S1433.ReducesTo [0] S_

variable [Facts]

def fn_part1 {F : FTy → Type} [FloatOps F] (main_arg4 : FVec F S16 .f32) (main_arg5 : FVec F S16x1433 .f32) (main_arg6 : FVec F S1433 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1433 .f32 := Host.absf main_arg5
  let main_cst_8 : FVec F S_ .f32 := constant S_ .f32 0x7F800000#32
  let main_v25 : FVec F S16x1433 .f32 := broadcastInDim S16x1433 ![] bcast_S_S16x1433 main_cst_8
  let main_v26 : IVec S16x1433 1 := cmpf .olt main_v24 main_v25
  let main_c_9 : IVec S_ 1 := constantI S_ 1 1#1
  let main_v27 : IVec S_ 1 := (fun x v => Host.reduce IntOp.andi x v reducesTo_S16x1433_S_d0_1 h_S_) main_v26 main_c_9
  let main_v28 : IVec S_ 1 := andi main_v23 main_v27
  let main_v29 : FVec F S1433 .f32 := Host.absf main_arg6
  let main_cst_10 : FVec F S_ .f32 := constant S_ .f32 0x7F800000#32
  let main_v30 : FVec F S1433 .f32 := broadcastInDim S1433 ![] bcast_S_S1433 main_cst_10
  let main_v31 : IVec S1433 1 := cmpf .olt main_v29 main_v30
  let main_c_11 : IVec S_ 1 := constantI S_ 1 1#1
  let main_v32 : IVec S_ 1 := (fun x v => Host.reduce IntOp.andi x v reducesTo_S1433_S_d0 h_S_) main_v31 main_c_11
  let main_v33 : IVec S_ 1 := andi main_v28 main_v32
  main_v33

def fn {F : FTy → Type} [FloatOps F] (main_arg0 : FVec F S100000x1433 .f32) (main_arg1 : FVec F S1433x32 .f32) (main_arg2 : FVec F S32 .f32) (main_arg3 : FVec F S32x16 .f32) (main_arg4 : FVec F S16 .f32) (main_arg5 : FVec F S16x1433 .f32) (main_arg6 : FVec F S1433 .f32) (main_arg7 : IVec S2x3200000 32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x32 .f32 := Host.absf main_arg1
  let main_cst_0 : FVec F S_ .f32 := constant S_ .f32 0x7F800000#32
  let main_v5 : FVec F S1433x32 .f32 := broadcastInDim S1433x32 ![] bcast_S_S1433x32 main_cst_0
  let main_v6 : IVec S1433x32 1 := cmpf .olt main_v4 main_v5
  let main_c_1 : IVec S_ 1 := constantI S_ 1 1#1
  let main_v7 : IVec S_ 1 := (fun x v => Host.reduce IntOp.andi x v reducesTo_S1433x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_v13 main_v16
-- ==== Kernel.lean ====
abbrev S100000x1433 : Shape := ⟨2, ![100000, 1433]⟩
abbrev S1433x32 : Shape := ⟨2, ![1433, 32]⟩
abbrev S32 : Shape := ⟨1, ![32]⟩
abbrev S32x16 : Shape := ⟨2, ![32, 16]⟩
abbrev S16 : Shape := ⟨1, ![16]⟩
abbrev S16x1433 : Shape := ⟨2, ![16, 1433]⟩
abbrev S1433 : Shape := ⟨1, ![1433]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S2000x1433 : Shape := ⟨2, ![2000, 1433]⟩
abbrev S2000x32 : Shape := ⟨2, ![2000, 32]⟩
abbrev S3300000x32 : Shape := ⟨2, ![3300000, 32]⟩
abbrev S1x32 : Shape := ⟨2, ![1, 32]⟩
abbrev S100000x16 : Shape := ⟨2, ![100000, 16]⟩
abbrev S2000x16 : Shape := ⟨2, ![2000, 16]⟩
abbrev S3300000x16 : Shape := ⟨2, ![3300000, 16]⟩
abbrev S1x16 : Shape := ⟨2, ![1, 16]⟩
abbrev S1x1433 : Shape := ⟨2, ![1, 1433]⟩
abbrev S1000x16 : Shape := ⟨2, ![1000, 16]⟩
abbrev S1000x1433 : Shape := ⟨2, ![1000, 1433]⟩
abbrev S1000 : Shape := ⟨1, ![1000]⟩
abbrev S1000x1 : Shape := ⟨2, ![1000, 1]⟩

abbrev nBuf : Space → Nat
  | .hbm => 96
  | .vmem => 16
  | .smem => 0
  | _ => 0

abbrev bufTy : (tb : Table) → Fin (tcTables nBuf tb) → BufTy
  | .hbm, ⟨0, _⟩ => ⟨S100000x1433, .f32⟩
  | .hbm, ⟨1, _⟩ => ⟨S1433x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S16x1433, .f32⟩
  | .hbm, ⟨6, _⟩ => ⟨S1433, .f32⟩
  | .hbm, ⟨7, _⟩ => ⟨S2x3200000, .i32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S3300000x1, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x16, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000x16, .f32⟩
  | .hbm, ⟨93, _⟩ => ⟨S100000x16, .f32⟩
  | .hbm, ⟨94, _⟩ => ⟨S1x1433, .f32⟩
  | .hbm, ⟨95, _⟩ => ⟨S100000x1433, .f32⟩
  | .local _ .vmem, ⟨0, _⟩ => ⟨S2000x1433, .f32⟩
  | .local _ .vmem, ⟨1, _⟩ => ⟨S2000x1433, .f32⟩
  | .local _ .vmem, ⟨2, _⟩ => ⟨S1433x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x16, .f32⟩
  | .local _ .vmem, ⟨8, _⟩ => ⟨S2000x16, .f32⟩
  | .local _ .vmem, ⟨9, _⟩ => ⟨S2000x16, .f32⟩
  | .local _ .vmem, ⟨10, _⟩ => ⟨S1000x16, .f32⟩
  | .local _ .vmem, ⟨11, _⟩ => ⟨S1000x16, .f32⟩
  | .local _ .vmem, ⟨12, _⟩ => ⟨S16x1433, .f32⟩
  | .local _ .vmem, ⟨13, _⟩ => ⟨S1x1433, .f32⟩
  | .local _ .vmem, ⟨14, _⟩ => ⟨S1000x1433, .f32⟩
  | .local _ .vmem, ⟨15, _⟩ => ⟨S1000x1433, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1433 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1433 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1433 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x32_S1433x32_0_0 : ∀ a, (![0, 0] : Fin 2 → Nat) a + S1433x32.size a ≤ S1433x32.size a
  h_S1433x32 : 0 < S1433x32.numel
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S1433_S1x1433 : S1433.ShapeCasts S1x1433
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  inb_S16x1433_S16x1433_0_0 : ∀ a, (![0, 0] : Fin 2 → Nat) a + S16x1433.size a ≤ S16x1433.size a
  h_S16x1433 : 0 < S16x1433.numel
  inb_S1x1433_S1x1433_0_0 : ∀ a, (![0, 0] : Fin 2 → Nat) a + S1x1433.size a ≤ S1x1433.size a
  h_S1x1433 : 0 < S1x1433.numel
  shapeCasts_S1x1433_S1x1433 : S1x1433.ShapeCasts S1x1433
  broadcasts_S1x1433_S1000x1433 : S1x1433.Broadcasts S1000x1433
  reduces_S1000x1433_S1000 : S1000x1433.Reduces [1] S1000
  shapeCasts_S1000_S1000x1 : S1000.ShapeCasts S1000x1
  broadcasts_S1000x1_S1000x1433 : S1000x1.Broadcasts S1000x1433
  inb_S1000x1433_S1000x1433_0_0 : ∀ a, (![0, 0] : Fin 2 → Nat) a + S1000x1433.size a ≤ S1000x1433.size a
  h_S1000x1433 : 0 < S1000x1433.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x32_S2000x32_1_0_0_1_n_n_wf : DotDims.WF S2000x1433 S1433x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x16_S2000x16_1_0_0_1_n_n_wf : DotDims.WF S2000x32 S32x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S1000x16_S16x1433_S1000x1433_1_0_0_1_n_n_wf : DotDims.WF S1000x16 S16x1433 S1000x1433 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x32.size a ≤ S1433x32.size a
  hwx0_1 : ∀ i : grid0.Coords, EltTy.bits .f32 = 32 ∨ (Rect.block (s := S1433x32) S1433x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x16.size a ≤ S100000x16.size a
  hwx2_0 : ∀ i : grid2.Coords, EltTy.bits .f32 = 32 ∨ (Rect.block (s := S100000x16) S1000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1433.size a ≤ S16x1433.size a
  hwx2_1 : ∀ i : grid2.Coords, EltTy.bits .f32 = 32 ∨ (Rect.block (s := S16x1433) S16x1433.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1433.size a ≤ S1x1433.size a
  hwx2_2 : ∀ i : grid2.Coords, EltTy.bits .f32 = 32 ∨ (Rect.block (s := S1x1433) S1x1433.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1433.size a ≤ S100000x1433.size a
  hwx2_3 : ∀ i : grid2.Coords, EltTy.bits .f32 = 32 ∨ (Rect.block (s := S100000x1433) S1000x1433.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x32_S2000x32_1_0_0_1_n_n : DotDims S2000x1433 S1433x32 S2000x32 where
  lhsContracting := [1]
  rhsContracting := [0]
  lhsNonContracting := [0]
  rhsNonContracting := [1]
  lhsBatch := []
  rhsBatch := []
  wf := dot_S2000x1433_S1433x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S1000x16_S16x1433_S1000x1433_1_0_0_1_n_n : DotDims S1000x16 S16x1433 S1000x1433 where
  lhsContracting := [1]
  rhsContracting := [0]
  lhsNonContracting := [0]
  rhsNonContracting := [1]
  lhsBatch := []
  rhsBatch := []
  wf := dot_S1000x16_S16x1433_S1000x1433_1_0_0_1_n_n_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1433x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S1000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x1433.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x1433.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1000x1433.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1433 : Shape := ⟨2, ![100000, 1433]⟩
abbrev S1433x32 : Shape := ⟨2, ![1433, 32]⟩
abbrev S32 : Shape := ⟨1, ![32]⟩
abbrev S32x16 : Shape := ⟨2, ![32, 16]⟩
abbrev S16 : Shape := ⟨1, ![16]⟩
abbrev S16x1433 : Shape := ⟨2, ![16, 1433]⟩
abbrev S1433 : Shape := ⟨1, ![1433]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S1x1433 : Shape := ⟨2, ![1, 1433]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x1433, .f32⟩
  | 1 => ⟨S1433x32, .f32⟩
  | 2 => ⟨S32, .f32⟩
  | 3 => ⟨S32x16, .f32⟩
  | 4 => ⟨S16, .f32⟩
  | 5 => ⟨S16x1433, .f32⟩
  | 6 => ⟨S1433, .f32⟩
  | 7 => ⟨S2x3200000, .i32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S100000x32, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S3300000x1, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x32, .f32⟩
  | 60 => ⟨S3300000x32, .f32⟩
  | 61 => ⟨S_, .f32⟩
  | 62 => ⟨S100000x32, .f32⟩
  | 63 => ⟨S3300000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S100000x16, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000, .f32⟩
  | 90 => ⟨S3300000, .f32⟩
  | 91 => ⟨S3300000x1, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x16, .f32⟩
  | 101 => ⟨S3300000x16, .f32⟩
  | 102 => ⟨S3300000x16, .f32⟩
  | 103 => ⟨S_, .f32⟩
  | 104 => ⟨S100000x16, .f32⟩
  | 105 => ⟨S3300000x1, .i32⟩
  | 106 => ⟨S100000x16, .f32⟩
  | 107 => ⟨S1x16, .f32⟩
  | 108 => ⟨S100000x16, .f32⟩
  | 109 => ⟨S100000x16, .f32⟩
  | 110 => ⟨S_, .f32⟩
  | 111 => ⟨S100000x16, .f32⟩
  | 112 => ⟨S100000x16, .f32⟩
  | 113 => ⟨S100000x1433, .f32⟩
  | 114 => ⟨S1x1433, .f32⟩
  | 115 => ⟨S100000x1433, .f32⟩
  | 116 => ⟨S100000x1433, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x1433, .f32⟩
  | 124 => ⟨S100000x1433, .f32⟩
  | 125 => ⟨S100000x1433, .f32⟩
  | 126 => ⟨S_, .f32⟩
  | 127 => ⟨S100000, .f32⟩
  | _ => ⟨S100000x1433, .f32⟩

abbrev hbmTy0_1 (i : Nat) : BufTy := match i % 128 with
  | 0 => ⟨S100000x1, .f32⟩
  | 1 => ⟨S100000x1, .f32⟩
  | 2 => ⟨S100000x1433, .f32⟩
  | 3 => ⟨S100000x1433, .f32⟩
  | _ => ⟨S100000x1433, .f32⟩

abbrev hbmTy (i : Nat) : BufTy := match i / 128 with
  | 0 => hbmTy0_0 i
  | 1 => hbmTy0_1 i
  | _ => ⟨S100000x1433, .f32⟩

abbrev bufTy : (tb : Table) → Fin (tcTables nBuf tb) → BufTy
  | .hbm, ⟨i, _⟩ => hbmTy i
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1433_S1x1433_1 : S1433.BroadcastsInDim S1x1433 (![1] : Fin 1 → Fin S1x1433.rank)
  bcast_S1x1433_S100000x1433_0_1 : S1x1433.BroadcastsInDim S100000x1433 (![0, 1] : Fin 2 → Fin S100000x1433.rank)
  reducesTo_S100000x1433_S100000_d1 : S100000x1433.ReducesTo [1] S100000
  h_S_ : 0 < S_.numel
  bcast_S100000_S100000x1_0 : S100000.BroadcastsInDim S100000x1 (![0] : Fin 1 → Fin S100000x1.rank)
  bcast_S100000x1_S100000x1433_0_1 : S100000x1.BroadcastsInDim S100000x1433 (![0, 1] : Fin 2 → Fin S100000x1433.rank)
  scatter_S100000_S3300000x1_S3300000_n_0_0_1_wf : ScatterDims.WF S100000 S3300000x1 S3300000 [] [0] [0] 1
  dot_S100000x1433_S1433x32_S100000x32_1_0_0_1_n_n_wf : DotDims.WF S100000x1433 S1433x32 S100000x32 [1] [0] [0] [1] [] []
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1433_S100000x1433_1_0_0_1_n_n_wf : DotDims.WF S100000x16 S16x1433 S100000x1433 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x1433_S1433x32_S100000x32_1_0_0_1_n_n : DotDims S100000x1433 S1433x32 S100000x32 where
  lhsContracting := [1]
  rhsContracting := [0]
  lhsNonContracting := [0]
  rhsNonContracting := [1]
  lhsBatch := []
  rhsBatch := []
  wf := dot_S100000x1433_S1433x32_S100000x32_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1433_S100000x1433_1_0_0_1_n_n : DotDims S100000x16 S16x1433 S100000x1433 where
  lhsContracting := [1]
  rhsContracting := [0]
  lhsNonContracting := [0]
  rhsNonContracting := [1]
  lhsBatch := []
  rhsBatch := []
  wf := dot_S100000x16_S16x1433_S100000x1433_1_0_0_1_n_n_wf

class Facts : Prop extends Facts₀ where

variable [Facts]
-- ==== Proof.KRun.lean ====
/-
  The kernel's run with its result named.

  The program is three kernel launches among stretches of array operations.  Every weakly fair execution ends; at the
  end the result array holds what the last launch's write-backs leave in it (the contents `W11` of the last segment
  boundary, read at the result), and the eight argument arrays are as launched.
-/
import proofs.«143425_j3564822856025_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting; the result array then holds the last boundary's
    contents at the result, and the argument arrays are as launched. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Hand

end
-- ==== Proof.Stages.lean ====
/-
  The stages both programs go through, as functions of the arrays they read.

  From the edge list alone: the source and target index lists (each row of the edge list followed by one self-loop per
  node), the reciprocal square root of each node's degree (the degree counts the target list; a node of degree 0 gets 0),
  and the normalisation of an edge, the product of that quantity at its two ends.  Then an aggregation layer: gather the
  rows of the features at the source indices, scale each by its edge's normalisation, add them up at the target indices,
  add the bias, clamp below at zero.  Then the closing stage: the product with the last weight matrix, plus the bias,
  and the row-wise log-softmax.  `G` is the whole composition with the three matrix products as parameters, so that it can
  be read with the host's product or with the kernels' product.
-/
import proofs.«143425_j3564822856025_1_alg».proof.Proof.Gen.ReferenceIdeal
import Idealize.ShloMosaic.PureOps.Ideal.Laws

noncomputable section

namespace Cert.ReferenceIdeal.Hand

open Cert.ReferenceIdeal Cert.ReferenceIdeal.Gen
open Idealize.ShloMosaic

variable {F : FTy → Type} [FloatOps F]

/-- The edges' source indices followed by every node once (its self-loop). -/
def srcF (x7 : IVec S2x3200000 32) : IVec S3300000 32 :=
  concatenate S3300000 0
    [⟨S3200000, shapeCast _ (extractStridedSlice S1x3200000 ![0, 0] x7 slices_S2x3200000_S1x3200000_0_0) shapeCasts_S1x3200000_S3200000⟩,
     ⟨S100000, iotaInDim S100000 32 0⟩] concatenates_S3200000_S100000_S3300000_d0

/-- The edges' target indices followed by every node once (its self-loop). -/
def dstF (x7 : IVec S2x3200000 32) : IVec S3300000 32 :=
  concatenate S3300000 0
    [⟨S3200000, shapeCast _ (extractStridedSlice S1x3200000 ![1, 0] x7 slices_S2x3200000_S1x3200000_1_0) shapeCasts_S1x3200000_S3200000⟩,
     ⟨S100000, iotaInDim S100000 32 0⟩] concatenates_S3200000_S100000_S3300000_d0

/-- Each node's degree: one added at every position of the target list. -/
def degF (dst : IVec S3300000 32) : FVec F S100000 .f32 :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 dst)
    (broadcastInDim S3300000 ![] bcast_S_S3300000 (constant (F := F) S_ .f32 0x3F800000#32))

/-- The reciprocal square root of each node's degree, 0 where the degree is not positive. -/
def disqF (dst : IVec S3300000 32) : FVec F S100000 .f32 :=
  select (cmpf (F := F) .ogt (degF dst) (broadcastInDim S100000 ![] bcast_S_S100000 (constant (F := F) S_ .f32 0x00000000#32)))
    (Host.rsqrt (degF dst))
    (broadcastInDim S100000 ![] bcast_S_S100000 (id (constant (F := F) S_ .f32 0x00000000#32)))

/-- A list of node indices as a gather takes it: a negative word is read 100000 higher; kept as a column. -/
def wrapIdx (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- An edge's normalisation: the node quantity at its source times the node quantity at its target. -/
def normF (disq : FVec F S100000 .f32) (src dst : IVec S3300000 32) : FVec F S3300000 .f32 :=
  mulf (Host.gather gather_S100000_S3300000x1_S3300000_n_0_n_n_0_1_1 disq (wrapIdx src))
    (Host.gather gather_S100000_S3300000x1_S3300000_n_0_n_n_0_1_1 disq (wrapIdx dst))

/-- One aggregation layer on 32 channels. -/
def layer32 (nrm : FVec F S3300000 .f32) (src dst : IVec S3300000 32)
    (b : FVec F S32 .f32) (h : FVec F S100000x32 .f32) : FVec F S100000x32 .f32 :=
  maximumf
    (addf
      (Host.scatterAdd scatter_S100000x32_S3300000x1_S3300000x32_1_0_0_1
        (broadcastInDim S100000x32 ![] bcast_S_S100000x32 (constant (F := F) S_ .f32 0x00000000#32))
        (broadcastInDim S3300000x1 ![0] bcast_S3300000_S3300000x1_0 dst)
        (mulf (broadcastInDim S3300000x32 ![0, 1] bcast_S3300000x1_S3300000x32_0_1
                (broadcastInDim S3300000x1 ![0] bcast_S3300000_S3300000x1_0 nrm))
          (Host.gather gather_S100000x32_S3300000x1_S3300000x32_1_0_n_n_0_1_132 h (wrapIdx src))))
      (broadcastInDim S100000x32 ![0, 1] bcast_S1x32_S100000x32_0_1 (broadcastInDim S1x32 ![1] bcast_S32_S1x32_1 b)))
    (broadcastInDim S100000x32 ![] bcast_S_S100000x32 (constant (F := F) S_ .f32 0x00000000#32))

/-- One aggregation layer on 16 channels. -/
def layer16 (nrm : FVec F S3300000 .f32) (src dst : IVec S3300000 32)
    (b : FVec F S16 .f32) (h : FVec F S100000x16 .f32) : FVec F S100000x16 .f32 :=
  maximumf
    (addf
      (Host.scatterAdd scatter_S100000x16_S3300000x1_S3300000x16_1_0_0_1
        (broadcastInDim S100000x16 ![] bcast_S_S100000x16 (constant (F := F) S_ .f32 0x00000000#32))
        (broadcastInDim S3300000x1 ![0] bcast_S3300000_S3300000x1_0 dst)
        (mulf (broadcastInDim S3300000x16 ![0, 1] bcast_S3300000x1_S3300000x16_0_1
                (broadcastInDim S3300000x1 ![0] bcast_S3300000_S3300000x1_0 nrm))
          (Host.gather gather_S100000x16_S3300000x1_S3300000x16_1_0_n_n_0_1_116 h (wrapIdx src))))
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- The logits of the closing stage from the product with the last weight matrix: plus the bias repeated over the rows. -/
def addBias (hw : FVec F S100000x1433 .f32) (bl : FVec F S1433 .f32) : FVec F S100000x1433 .f32 :=
  addf hw (broadcastInDim S100000x1433 ![0, 1] bcast_S1x1433_S100000x1433_0_1 (broadcastInDim S1x1433 ![1] bcast_S1433_S1x1433_1 bl))

/-- The largest entry of each row, taken from −∞ and once more against −∞. -/
def refRowMax (o : FVec F S100000x1433 .f32) : FVec F S100000 .f32 :=
  maximumf (broadcastInDim S100000 ![] bcast_S_S100000 (constant (F := F) S_ .f32 0xFF800000#32))
    (Host.reduce FloatOps.maximumf o (constant (F := F) S_ .f32 0xFF800000#32) reducesTo_S100000x1433_S100000_d1 h_S_)

/-- One value per row, kept as a column and repeated over the columns. -/
def refKeepRows (v : FVec F S100000 .f32) : FVec F S100000x1433 .f32 :=
  broadcastInDim S100000x1433 ![0, 1] bcast_S100000x1_S100000x1433_0_1 (broadcastInDim S100000x1 ![0] bcast_S100000_S100000x1_0 v)

/-- From the logits less their row maxima: less, in each row, the logarithm of the sum of the row's exponentials. -/
def lsmFinish (s : FVec F S100000x1433 .f32) : FVec F S100000x1433 .f32 :=
  subf s
    (broadcastInDim S100000x1433 ![0, 1] bcast_S100000x1_S100000x1433_0_1
      (Host.log (broadcastInDim S100000x1 ![0] bcast_S100000_S100000x1_0
        (Host.reduceAdd (Host.exp s) (constant (F := F) S_ .f32 0x00000000#32) reducesTo_S100000x1433_S100000_d1 h_S_))))

/-- The row-wise log-softmax of an array of logits, as the reference computes it. -/
def refLsm (o : FVec F S100000x1433 .f32) : FVec F S100000x1433 .f32 :=
  lsmFinish (subf o (refKeepRows (refRowMax o)))

end Cert.ReferenceIdeal.Hand

end
-- ==== Proof.HostK.lean ====
/-
  The array operations between the kernel launches, read back stretch by stretch.

  Before the first launch the program computes, from the edge list alone, the two index lists, the node quantity and the
  edges' normalisation; between the launches it applies one aggregation layer to the launch's result; before the last
  launch it also views the bias vector as a row.  Each stretch writes its stage as the named function of the buffers it
  reads and leaves every other buffer alone.  The stage functions are the ones the reference's operations spell: the
  two programs print these operations identically.  Nothing here depends on what a float is.
-/
import proofs.«143425_j3564822856025_1_alg».proof.Proof.Gen.KernelIdeal.Launch
import proofs.«143425_j3564822856025_1_alg».proof.Proof.Stages
import Idealize.ShloMosaic.Lib.StableHlo.Run
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The first seven operations of the first stretch: the two index lists. -/
abbrev hostOps0a : List (HloOp τ sig (Elt F)) :=
  [ StableHlo.nullary main_v0 (iotaInDim S100000 32 0),
    StableHlo.unary main_arg7 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg7 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The rest of the first stretch: the degree, its comparison with zero and its reciprocal square root. -/
abbrev hostOps0b : List (HloOp τ sig (Elt F)) :=
  [ StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem hostOps0_split : (hostOps0 : List (HloOp τ sig (Elt F))) = hostOps0a ++ hostOps0b := rfl

variable (V : Valuation τ sig (Elt F))

/-! ## What each stretch writes -/

theorem wrA1_v3 : after (hostOps0a (F := F)) V (Proc.devRef .tc main_v3) = Cert.ReferenceIdeal.Hand.srcF (V (Proc.devRef .tc main_arg7)) := by after_results_simp <;> rfl
theorem wrA1_v6 : after (hostOps0a (F := F)) V (Proc.devRef .tc main_v6) = Cert.ReferenceIdeal.Hand.dstF (V (Proc.devRef .tc main_arg7)) := by after_results_simp <;> rfl
theorem wrA2_v14 : after (hostOps0_1 (F := F)) (after (hostOps0b (F := F)) V) (Proc.devRef .tc main_v14) = Cert.ReferenceIdeal.Hand.disqF (F := F) (V (Proc.devRef .tc main_v6)) := by
  after_results_simp <;> rfl
theorem wrC_v29 : after (hostOps0_2 (F := F)) V (Proc.devRef .tc main_v29)
    = Cert.ReferenceIdeal.Hand.normF (F := F) (V (Proc.devRef .tc main_v14)) (V (Proc.devRef .tc main_v3)) (V (Proc.devRef .tc main_v6)) := by
  after_results_simp <;> rfl
theorem wrD_v47 : after (hostOps1_1 (F := F)) (after (hostOps1 (F := F)) V) (Proc.devRef .tc main_v47)
    = Cert.ReferenceIdeal.Hand.layer32 (F := F) (V (Proc.devRef .tc main_v29)) (V (Proc.devRef .tc main_v3)) (V (Proc.devRef .tc main_v6)) (V (Proc.devRef .tc main_arg2)) (V (Proc.devRef .tc main_v30)) := by
  after_results_simp <;> rfl
theorem wrG_v65 : after (hostOps2_1 (F := F)) (after (hostOps2 (F := F)) V) (Proc.devRef .tc main_v65)
    = Cert.ReferenceIdeal.Hand.layer16 (F := F) (V (Proc.devRef .tc main_v29)) (V (Proc.devRef .tc main_v3)) (V (Proc.devRef .tc main_v6)) (V (Proc.devRef .tc main_arg4)) (V (Proc.devRef .tc main_v48)) := by
  after_results_simp <;> rfl
theorem wrH_v66 : after (hostOps2_2 (F := F)) V (Proc.devRef .tc main_v66)
    = shapeCast S1x1433 (V (Proc.devRef .tc main_arg6) : FVec F S1433 .f32) shapeCasts_S1433_S1x1433 := by
  after_results_simp <;> rfl

/-! ## What each stretch leaves alone -/

theorem keepA1_arg0 : after (hostOps0a (F := F)) V (Proc.devRef .tc main_arg0) = V (Proc.devRef .tc main_arg0) := by after_results_simp <;> rfl
theorem keepA1_arg1 : after (hostOps0a (F := F)) V (Proc.devRef .tc main_arg1) = V (Proc.devRef .tc main_arg1) := by after_results_simp <;> rfl
theorem keepA1_arg2 : after (hostOps0a (F := F)) V (Proc.devRef .tc main_arg2) = V (Proc.devRef .tc main_arg2) := by after_results_simp <;> rfl
theorem keepA1_arg3 : after (hostOps0a (F := F)) V (Proc.devRef .tc main_arg3) = V (Proc.devRef .tc main_arg3) := by after_results_simp <;> rfl
theorem keepA1_arg4 : after (hostOps0a (F := F)) V (Proc.devRef .tc main_arg4) = V (Proc.devRef .tc main_arg4) := by after_results_simp <;> rfl
theorem keepA1_arg5 : after (hostOps0a (F := F)) V (Proc.devRef .tc main_arg5) = V (Proc.devRef .tc main_arg5) := by after_results_simp <;> rfl
theorem keepA1_arg6 : after (hostOps0a (F := F)) V (Proc.devRef .tc main_arg6) = V (Proc.devRef .tc main_arg6) := by after_results_simp <;> rfl
theorem keepA2_v3 : after (hostOps0_1 (F := F)) (after (hostOps0b (F := F)) V) (Proc.devRef .tc main_v3) = V (Proc.devRef .tc main_v3) := by after_results_simp <;> rfl
theorem keepA2_v6 : after (hostOps0_1 (F := F)) (after (hostOps0b (F := F)) V) (Proc.devRef .tc main_v6) = V (Proc.devRef .tc main_v6) := by after_results_simp <;> rfl
theorem keepA2_arg0 : after (hostOps0_1 (F := F)) (after (hostOps0b (F := F)) V) (Proc.devRef .tc main_arg0) = V (Proc.devRef .tc main_arg0) := by after_results_simp <;> rfl
theorem keepA2_arg1 : after (hostOps0_1 (F := F)) (after (hostOps0b (F := F)) V) (Proc.devRef .tc main_arg1) = V (Proc.devRef .tc main_arg1) := by after_results_simp <;> rfl
theorem keepA2_arg2 : after (hostOps0_1 (F := F)) (after (hostOps0b (F := F)) V) (Proc.devRef .tc main_arg2) = V (Proc.devRef .tc main_arg2) := by after_results_simp <;> rfl
theorem keepA2_arg3 : after (hostOps0_1 (F := F)) (after (hostOps0b (F := F)) V) (Proc.devRef .tc main_arg3) = V (Proc.devRef .tc main_arg3) := by after_results_simp <;> rfl
theorem keepA2_arg4 : after (hostOps0_1 (F := F)) (after (hostOps0b (F := F)) V) (Proc.devRef .tc main_arg4) = V (Proc.devRef .tc main_arg4) := by after_results_simp <;> rfl
theorem keepA2_arg5 : after (hostOps0_1 (F := F)) (after (hostOps0b (F := F)) V) (Proc.devRef .tc main_arg5) = V (Proc.devRef .tc main_arg5) := by after_results_simp <;> rfl
theorem keepA2_arg6 : after (hostOps0_1 (F := F)) (after (hostOps0b (F := F)) V) (Proc.devRef .tc main_arg6) = V (Proc.devRef .tc main_arg6) := by after_results_simp <;> rfl
theorem keepC_v3 : after (hostOps0_2 (F := F)) V (Proc.devRef .tc main_v3) = V (Proc.devRef .tc main_v3) := by after_results_simp <;> rfl
theorem keepC_v6 : after (hostOps0_2 (F := F)) V (Proc.devRef .tc main_v6) = V (Proc.devRef .tc main_v6) := by after_results_simp <;> rfl
theorem keepC_arg0 : after (hostOps0_2 (F := F)) V (Proc.devRef .tc main_arg0) = V (Proc.devRef .tc main_arg0) := by after_results_simp <;> rfl
theorem keepC_arg1 : after (hostOps0_2 (F := F)) V (Proc.devRef .tc main_arg1) = V (Proc.devRef .tc main_arg1) := by after_results_simp <;> rfl
theorem keepC_arg2 : after (hostOps0_2 (F := F)) V (Proc.devRef .tc main_arg2) = V (Proc.devRef .tc main_arg2) := by after_results_simp <;> rfl
theorem keepC_arg3 : after (hostOps0_2 (F := F)) V (Proc.devRef .tc main_arg3) = V (Proc.devRef .tc main_arg3) := by after_results_simp <;> rfl
theorem keepC_arg4 : after (hostOps0_2 (F := F)) V (Proc.devRef .tc main_arg4) = V (Proc.devRef .tc main_arg4) := by after_results_simp <;> rfl
theorem keepC_arg5 : after (hostOps0_2 (F := F)) V (Proc.devRef .tc main_arg5) = V (Proc.devRef .tc main_arg5) := by after_results_simp <;> rfl
theorem keepC_arg6 : after (hostOps0_2 (F := F)) V (Proc.devRef .tc main_arg6) = V (Proc.devRef .tc main_arg6) := by after_results_simp <;> rfl
theorem keepD_v29 : after (hostOps1_1 (F := F)) (after (hostOps1 (F := F)) V) (Proc.devRef .tc main_v29) = V (Proc.devRef .tc main_v29) := by after_results_simp <;> rfl
theorem keepD_v3 : after (hostOps1_1 (F := F)) (after (hostOps1 (F := F)) V) (Proc.devRef .tc main_v3) = V (Proc.devRef .tc main_v3) := by after_results_simp <;> rfl
theorem keepD_v6 : after (hostOps1_1 (F := F)) (after (hostOps1 (F := F)) V) (Proc.devRef .tc main_v6) = V (Proc.devRef .tc main_v6) := by after_results_simp <;> rfl
theorem keepD_arg3 : after (hostOps1_1 (F := F)) (after (hostOps1 (F := F)) V) (Proc.devRef .tc main_arg3) = V (Proc.devRef .tc main_arg3) := by after_results_simp <;> rfl
theorem keepD_arg4 : after (hostOps1_1 (F := F)) (after (hostOps1 (F := F)) V) (Proc.devRef .tc main_arg4) = V (Proc.devRef .tc main_arg4) := by after_results_simp <;> rfl
theorem keepD_arg5 : after (hostOps1_1 (F := F)) (after (hostOps1 (F := F)) V) (Proc.devRef .tc main_arg5) = V (Proc.devRef .tc main_arg5) := by after_results_simp <;> rfl
theorem keepD_arg6 : after (hostOps1_1 (F := F)) (after (hostOps1 (F := F)) V) (Proc.devRef .tc main_arg6) = V (Proc.devRef .tc main_arg6) := by after_results_simp <;> rfl
theorem keepG_arg5 : after (hostOps2_1 (F := F)) (after (hostOps2 (F := F)) V) (Proc.devRef .tc main_arg5) = V (Proc.devRef .tc main_arg5) := by after_results_simp <;> rfl
theorem keepG_arg6 : after (hostOps2_1 (F := F)) (after (hostOps2 (F := F)) V) (Proc.devRef .tc main_arg6) = V (Proc.devRef .tc main_arg6) := by after_results_simp <;> rfl
theorem keepH_v65 : after (hostOps2_2 (F := F)) V (Proc.devRef .tc main_v65) = V (Proc.devRef .tc main_v65) := by after_results_simp <;> rfl
theorem keepH_arg5 : after (hostOps2_2 (F := F)) V (Proc.devRef .tc main_arg5) = V (Proc.devRef .tc main_arg5) := by after_results_simp <;> rfl

/-! ## The first two stretches together -/

theorem wrA_v3 : after (hostOps0_1 (F := F)) (after (hostOps0 (F := F)) V) (Proc.devRef .tc main_v3) = Cert.ReferenceIdeal.Hand.srcF (V (Proc.devRef .tc main_arg7)) := by
  rw [hostOps0_split (F := F), StableHlo.after_append, keepA2_v3, wrA1_v3]
theorem wrA_v6 : after (hostOps0_1 (F := F)) (after (hostOps0 (F := F)) V) (Proc.devRef .tc main_v6) = Cert.ReferenceIdeal.Hand.dstF (V (Proc.devRef .tc main_arg7)) := by
  rw [hostOps0_split (F := F), StableHlo.after_append, keepA2_v6, wrA1_v6]
theorem wrA_v14 : after (hostOps0_1 (F := F)) (after (hostOps0 (F := F)) V) (Proc.devRef .tc main_v14)
    = Cert.ReferenceIdeal.Hand.disqF (F := F) (Cert.ReferenceIdeal.Hand.dstF (V (Proc.devRef .tc main_arg7))) := by
  rw [hostOps0_split (F := F), StableHlo.after_append, wrA2_v14, wrA1_v6]
theorem keepA_arg0 : after (hostOps0_1 (F := F)) (after (hostOps0 (F := F)) V) (Proc.devRef .tc main_arg0) = V (Proc.devRef .tc main_arg0) := by
  rw [hostOps0_split (F := F), StableHlo.after_append, keepA2_arg0, keepA1_arg0]
theorem keepA_arg1 : after (hostOps0_1 (F := F)) (after (hostOps0 (F := F)) V) (Proc.devRef .tc main_arg1) = V (Proc.devRef .tc main_arg1) := by
  rw [hostOps0_split (F := F), StableHlo.after_append, keepA2_arg1, keepA1_arg1]
theorem keepA_arg2 : after (hostOps0_1 (F := F)) (after (hostOps0 (F := F)) V) (Proc.devRef .tc main_arg2) = V (Proc.devRef .tc main_arg2) := by
  rw [hostOps0_split (F := F), StableHlo.after_append, keepA2_arg2, keepA1_arg2]
theorem keepA_arg3 : after (hostOps0_1 (F := F)) (after (hostOps0 (F := F)) V) (Proc.devRef .tc main_arg3) = V (Proc.devRef .tc main_arg3) := by
  rw [hostOps0_split (F := F), StableHlo.after_append, keepA2_arg3, keepA1_arg3]
theorem keepA_arg4 : after (hostOps0_1 (F := F)) (after (hostOps0 (F := F)) V) (Proc.devRef .tc main_arg4) = V (Proc.devRef .tc main_arg4) := by
  rw [hostOps0_split (F := F), StableHlo.after_append, keepA2_arg4, keepA1_arg4]
theorem keepA_arg5 : after (hostOps0_1 (F := F)) (after (hostOps0 (F := F)) V) (Proc.devRef .tc main_arg5) = V (Proc.devRef .tc main_arg5) := by
  rw [hostOps0_split (F := F), StableHlo.after_append, keepA2_arg5, keepA1_arg5]
theorem keepA_arg6 : after (hostOps0_1 (F := F)) (after (hostOps0 (F := F)) V) (Proc.devRef .tc main_arg6) = V (Proc.devRef .tc main_arg6) := by
  rw [hostOps0_split (F := F), StableHlo.after_append, keepA2_arg6, keepA1_arg6]

end Cert.KernelIdeal.Hand

end
-- ==== Proof.Spec.lean ====
/-
  The two array functions the program is made of, on the extended reals.

  `mmArr x w` is the product of two whole arrays: entry i is the sum over k of x (i₀, k) · w (k, i₁).
  `lsmArr h w bias` is the row-wise log-softmax of the logits o(r, q) = (∑ k, h(r, k) · w(k, q)) + bias q:
  entry (r, q) is (o(r, q) − M r) − log (∑ d, exp (o(r, d) − M r)), with M r the largest logit of row r, taken as a fold
  of `max` from −∞.  Folding `max` once more with the starting value changes nothing (`max_fold_self`).
-/
import Idealize.ShloMosaic.Lib.ValueIdx
import Mathlib.Data.Finset.Fold
import Idealize.ShloMosaic.PureOps.Ideal.Laws

noncomputable section

open scoped BigOperators

namespace Cert.Spec

open Idealize.ShloMosaic Idealize.ShloMosaic.ValueIdx

/-- The product of two whole arrays, entry by entry. -/
def mmArr {a n b : ℕ} (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

/-- The extended real the pattern of −∞ denotes. -/
abbrev ninf : EReal := Ideal.ofBits .f32 0xFF800000#32

/-- The log-softmax of one row of `n` logits: each logit less the row's maximum, less the logarithm of the sum of the
    exponentials of those differences. -/
def lsmRow {n : ℕ} (o : Fin n → EReal) (q : Fin n) : EReal :=
  (o q - (Finset.univ : Finset (Fin n)).fold max ninf o)
    - Ideal.log (∑ d : Fin n, Ideal.exp (o d - (Finset.univ : Finset (Fin n)).fold max ninf o))

/-- The logits of row `r`: the row of `h` times the weight matrix, plus the bias. -/
def logitRow {a n b : ℕ} (h : (⟨2, ![a, n]⟩ : Shape).Idx → EReal) (w : (⟨2, ![n, b]⟩ : Shape).Idx → EReal)
    (bias : Fin b → EReal) (r : Fin a) (q : Fin b) : EReal :=
  (∑ k : Fin n, h (ix2 r k) * w (ix2 k q)) + bias q

/-- The row-wise log-softmax of the logits, as one array. -/
def lsmArr {a n b : ℕ} (h : (⟨2, ![a, n]⟩ : Shape).Idx → EReal) (w : (⟨2, ![n, b]⟩ : Shape).Idx → EReal)
    (bias : Fin b → EReal) : (⟨2, ![a, b]⟩ : Shape).Idx → EReal :=
  fun i => lsmRow (logitRow h w bias (i 0)) (i 1)

/-- A fold of `max` from `b` already dominates `b`. -/
theorem max_fold_self {ι : Type} (s : Finset ι) (b : EReal) (f : ι → EReal) :
    max b (s.fold max b f) = s.fold max b f :=
  max_eq_right ((Finset.le_fold_max b).mpr (Or.inl le_rfl))

end Cert.Spec

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.Pay.lean ====
/-
  What each kernel body computes, entry by entry, on the extended reals.

  The first two bodies are plain matrix products of the row block with the whole weight matrix, accumulated onto zero
  (a change of float format in between is the identity on the extended reals).  The third body forms the logits
  o(p, q) = (∑ k, h(p, k) · W(k, q)) + b(q) of its block of rows and returns the log-softmax of each row:
  (o(p, q) − M p) − log (∑ d, exp (o(p, d) − M p)), with M p the largest logit of row p (a fold of max from −∞).
-/
import proofs.«143425_j3564822856025_1_alg».proof.Proof.Gen.KernelIdeal.Skeleton
import proofs.«143425_j3564822856025_1_alg».proof.Proof.Spec
import proofs.«143425_j3564822856025_1_alg».proof.Proof.LibPlainMatmul
import proofs.«143425_j3564822856025_1_alg».proof.Proof.LibRowMax
import proofs.«143425_j3564822856025_1_alg».proof.Proof.LibRowOps
import proofs.«143425_j3564822856025_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.Spec
open Idealize.ShloMosaic Idealize.ShloMosaic.ValueIdx

/-- The first body: rows of the block times the weight matrix. -/
theorem pay0_apply (x0 : Vec Ideal S2000x1433 .f32) (x1 : Vec Ideal S1433x32 .f32) (p : Fin 2000) (q : Fin 32) :
    k0_pay1 (F := Ideal) x0 x1 (ix2 p q) = ∑ k : Fin 1433, x0 (ix2 p k) * x1 (ix2 k q) := by
  unfold k0_pay1
  exact Cert.PlainMatmul.zero_acc_apply (a := 2000) (n := 1433) (b := 32)
    dot_S2000x1433_S1433x32_S2000x32_1_0_0_1_n_n_wf none
    (truncf .bf16 x0 bitsLt_bf16_f32) (truncf .bf16 x1 bitsLt_bf16_f32) p q

/-- The second body: rows of the block times the weight matrix. -/
theorem pay1_apply (x0 : Vec Ideal S2000x32 .f32) (x1 : Vec Ideal S32x16 .f32) (p : Fin 2000) (q : Fin 16) :
    k1_pay1 (F := Ideal) x0 x1 (ix2 p q) = ∑ k : Fin 32, x0 (ix2 p k) * x1 (ix2 k q) := by
  unfold k1_pay1
  rw [shapeCast_self]
  exact Cert.PlainMatmul.zero_acc_apply (a := 2000) (n := 32) (b := 16)
    dot_S2000x32_S32x16_S2000x16_1_0_0_1_n_n_wf none x0 x1 p q

/-! ## The third body, in three stages -/

/-- The logits of the block: the rows times the weight matrix, plus the bias row repeated over the rows. -/
def logits (x0 : FVec Ideal S1000x16 .f32) (x1 : FVec Ideal S16x1433 .f32) (x2 : FVec Ideal S1x1433 .f32) :
    FVec Ideal S1000x1433 .f32 :=
  addf (matmul dot_S1000x16_S16x1433_S1000x1433_1_0_0_1_n_n none
      (shapeCast S1000x16 x0 shapeCasts_S1000x16_S1000x16 : FVec Ideal S1000x16 .f32) (x1 : FVec Ideal S16x1433 .f32)
      (constant S1000x1433 .f32 0x00000000#32))
    (broadcastTo S1000x1433 (shapeCast S1x1433 x2 shapeCasts_S1x1433_S1x1433 : FVec Ideal S1x1433 .f32) broadcasts_S1x1433_S1000x1433)

/-- One value per row, kept as a column and repeated over the columns. -/
def keepRows (v : FVec Ideal S1000 .f32) : FVec Ideal S1000x1433 .f32 :=
  broadcastTo S1000x1433 (shapeCast S1000x1 v shapeCasts_S1000_S1000x1) broadcasts_S1000x1_S1000x1433

/-- The largest entry of each row, from −∞. -/
def rowMax (o : FVec Ideal S1000x1433 .f32) : FVec Ideal S1000 .f32 :=
  multiReduction .maximumf [1] S1000 o 0xFF800000#32 reduces_S1000x1433_S1000 (.inl rfl) rfl

/-- The sum of each row. -/
def rowSum (e : FVec Ideal S1000x1433 .f32) : FVec Ideal S1000 .f32 :=
  multiReduction .add [1] S1000 e 0x00000000#32 reduces_S1000x1433_S1000 (.inl rfl) rfl

/-- The log-softmax of every row of a block of logits. -/
def lsmBlock (o : FVec Ideal S1000x1433 .f32) : FVec Ideal S1000x1433 .f32 :=
  subf (subf o (keepRows (rowMax o)))
    (broadcastTo S1000x1433 (log (shapeCast S1000x1 (rowSum (exp (subf o (keepRows (rowMax o))))) shapeCasts_S1000_S1000x1))
      broadcasts_S1000x1_S1000x1433)

/-- The third body is the log-softmax of its logits. -/
theorem pay2_eq (x0 : Vec Ideal S1000x16 .f32) (x1 : Vec Ideal S16x1433 .f32) (x2 : Vec Ideal S1x1433 .f32) :
    k2_pay1 (F := Ideal) x0 x1 x2 = lsmBlock (logits x0 x1 x2) := rfl

theorem logits_apply (x0 : FVec Ideal S1000x16 .f32) (x1 : FVec Ideal S16x1433 .f32) (x2 : FVec Ideal S1x1433 .f32)
    (p : Fin 1000) (q : Fin 1433) :
    logits x0 x1 x2 (ix2 p q) = logitRow (a := 1000) (n := 16) (b := 1433) x0 x1 (fun d => x2 (ix2 (0 : Fin 1) d)) p q := by
  unfold logits logitRow
  rw [shapeCast_self, shapeCast_self]
  show matmul dot_S1000x16_S16x1433_S1000x1433_1_0_0_1_n_n none (x0 : FVec Ideal S1000x16 .f32) (x1 : FVec Ideal S16x1433 .f32)
        (constant S1000x1433 .f32 0x00000000#32) (ix2 p q)
      + broadcastTo S1000x1433 (x2 : FVec Ideal S1x1433 .f32) broadcasts_S1x1433_S1000x1433 (ix2 p q) = _
  refine congrArg₂ (· + ·) ?_ ?_
  · exact Cert.PlainMatmul.zero_acc_apply (a := 1000) (n := 16) (b := 1433)
      dot_S1000x16_S16x1433_S1000x1433_1_0_0_1_n_n_wf none x0 x1 p q
  · exact broadcastTo_1b_ab_apply (a := 1000) (b := 1433) x2 broadcasts_S1x1433_S1000x1433 p q

theorem keepRows_apply (v : FVec Ideal S1000 .f32) (p : Fin 1000) (q : Fin 1433) : keepRows v (ix2 p q) = v (ix1 p) :=
  Cert.RowOps.column_repeated_apply (a := 1000) (b := 1433) v shapeCasts_S1000_S1000x1 broadcasts_S1000x1_S1000x1433 p q

theorem rowMax_apply (o : FVec Ideal S1000x1433 .f32) (p : Fin 1000) :
    rowMax o (ix1 p) = (Finset.univ : Finset (Fin 1433)).fold max ninf (fun d => o (ix2 p d)) :=
  Cert.RowMax.max_over_columns_apply (a := 1000) (n := 1433) o reduces_S1000x1433_S1000 (.inl rfl) rfl p

theorem rowSum_apply (e : FVec Ideal S1000x1433 .f32) (p : Fin 1000) :
    rowSum e (ix1 p) = ∑ d : Fin 1433, e (ix2 p d) :=
  Cert.RowOps.sum_over_columns_apply (a := 1000) (n := 1433) e reduces_S1000x1433_S1000 (.inl rfl) rfl p

/-- Entry (p, q) of the log-softmax of a block is the log-softmax of row p at q. -/
theorem lsmBlock_apply (o : FVec Ideal S1000x1433 .f32) (p : Fin 1000) (q : Fin 1433) :
    lsmBlock o (ix2 p q) = lsmRow (fun d => o (ix2 p d)) q := by
  have hs : ∀ d : Fin 1433, subf o (keepRows (rowMax o)) (ix2 p d)
      = o (ix2 p d) - (Finset.univ : Finset (Fin 1433)).fold max ninf (fun d => o (ix2 p d)) := fun d => by
    show o (ix2 p d) - keepRows (rowMax o) (ix2 p d) = _
    rw [keepRows_apply, rowMax_apply]
  unfold lsmBlock lsmRow
  show subf o (keepRows (rowMax o)) (ix2 p q)
      - broadcastTo S1000x1433 (log (shapeCast S1000x1 (rowSum (exp (subf o (keepRows (rowMax o))))) shapeCasts_S1000_S1000x1))
          broadcasts_S1000x1_S1000x1433 (ix2 p q) = _
  refine congrArg₂ (· - ·) (hs q) ?_
  refine (Cert.Keepdims.column_repeat_apply (a := 1000) (b := 1433) _ broadcasts_S1000x1_S1000x1433 p q).trans ?_
  show Ideal.log (shapeCast S1000x1 (rowSum (exp (subf o (keepRows (rowMax o))))) shapeCasts_S1000_S1000x1 (ix2 p (0 : Fin 1))) = _
  refine congrArg Ideal.log ?_
  refine (Cert.Keepdims.column_cast_apply (a := 1000) _ shapeCasts_S1000_S1000x1 p).trans ?_
  refine (rowSum_apply _ p).trans (Finset.sum_congr rfl fun d _ => ?_)
  show Ideal.exp (subf o (keepRows (rowMax o)) (ix2 p d)) = _
  rw [hs d]

/-- The third body at an entry of its block. -/
theorem pay2_apply (x0 : Vec Ideal S1000x16 .f32) (x1 : Vec Ideal S16x1433 .f32) (x2 : Vec Ideal S1x1433 .f32)
    (p : Fin 1000) (q : Fin 1433) :
    k2_pay1 (F := Ideal) x0 x1 x2 (ix2 p q)
      = lsmRow (logitRow (a := 1000) (n := 16) (b := 1433) x0 x1 (fun d => x2 (ix2 (0 : Fin 1) d)) p) q := by
  rw [pay2_eq, lsmBlock_apply]
  exact congrArg (lsmRow · q) (funext fun d => logits_apply x0 x1 x2 p d)

end Cert.KernelIdeal.Hand

end
-- ==== Proof.Blocks0.lean ====
/-
  Launch 0, block by block, is one product of whole arrays.

  The launch runs over 50 blocks of 2000 rows.  At block t the body reads rows 2000·t … 2000·t + 1999 of the left
  array and the whole right array, and writes rows 2000·t … of the result: entry (p, q) of the block is the sum over k of
  left (2000·t + p, k) · right (k, q).  So each block written back is that block of the one array
  i ↦ ∑ k, left (i₀, k) · right (k, i₁), and the 50 blocks cover the result array.  This holds for any contents `V` the
  launch finds in its arrays.
-/
import proofs.«143425_j3564822856025_1_alg».proof.Proof.Gen.KernelIdeal.Frame
import proofs.«143425_j3564822856025_1_alg».proof.Proof.Pay
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's result at an entry of its block, over any block contents. -/
theorem pay0_at (x0 : Vec Ideal S2000x1433 .f32) (x1 : Vec Ideal S1433x32 .f32) (y : S2000x32.Idx) :
    k0_pay1 (F := Ideal) x0 x1 y = ∑ k : Fin 1433, x0 (ix2 (y 0) k) * x1 (ix2 k (y 1)) := by
  exact (congrArg (k0_pay1 (F := Ideal) x0 x1) (eq_ix2 y)).trans (pay0_apply x0 x1 (y 0) (y 1))

/-- The printed index maps over the grid: the row windows sit at block t, the weight window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 2000·t … of the left array. -/
theorem iblk0_0_apply (c : Dev nD) (t : Fin cfg0.N) (y : S2000x1433.Idx) (i : S100000x1433.Idx)
    (h0 : (i 0).val = t.val * 2000 + (y 0).val) (h1 : (i 1).val = (y 1).val) :
    (iblk0 V c 0 t : Vec Ideal S2000x1433 .f32) y = (V c main_arg0 : S100000x1433.Idx → EReal) i := by
  obtain ⟨e0, e1, -, -, -, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 1433 + 1 * (y 1).val = (i 1).val; rw [e1, h1]; omega

/-- The right window's block at every point is the whole right array. -/
theorem iblk0_1_apply (c : Dev nD) (t : Fin cfg0.N) (y i : S1433x32.Idx)
    (h0 : (i 0).val = (y 0).val) (h1 : (i 1).val = (y 1).val) :
    (iblk0 V c 1 t : Vec Ideal S1433x32 .f32) y = (V c main_arg1 : S1433x32.Idx → EReal) i := by
  obtain ⟨-, -, e2, e3, -, -⟩ := idx_facts0 t
  unfold iblk0
  rw [View.read_apply]
  show V c main_arg1 _ = V c main_arg1 _
  refine congrArg (V c main_arg1) (funext fun a => Fin.ext ?_)
  match a with
  | ⟨0, _⟩ => show win0_1.index t (0 : Fin 2) * 1433 + 1 * (y 0).val = (i 0).val; rw [e2, h0]; omega
  | ⟨1, _⟩ => show win0_1.index t (1 : Fin 2) * 32 + 1 * (y 1).val = (i 1).val; rw [e3, h1]; omega

/-- What point t writes back is block t of the product of the two arrays as the launch finds them. -/
theorem flushed0_eq (c : Dev nD) (t : Fin cfg0.N) :
    (dat0 V c).flushed 2 t
      = ((cfg0.win 2).blk t).view.read (Elt Ideal) (mmArr (a := 100000) (n := 1433) (b := 32) (V c main_arg0) (V c main_arg1)) := by
  show (cfg0.win 2).cut (grid0.coords t) ((dat0 V c).after 2 t) = _
  rw [after0_2]
  unfold out0_2
  rw [View.canon_unit_zero hz2]
  simp only [View.ld_unit_zero (S := S2000x1433) hz2, View.ld_unit_zero (S := S1433x32) hz2]
  obtain ⟨-, -, -, -, e4, e5⟩ := idx_facts0 t
  funext j
  refine (pay0_at _ _ j).trans ?_
  show _ = mmArr (a := 100000) (n := 1433) (b := 32) (V c main_arg0) (V c main_arg1) (((cfg0.win 2).blk t).view.emb j)
  unfold mmArr
  refine Finset.sum_congr rfl fun k _ => ?_
  have hj0 : (j 0).val < 2000 := (j 0).isLt
  have hj1 : (j 1).val < 32 := (j 1).isLt
  have r0 : ((((cfg0.win 2).blk t).view.emb j) 0).val = t.val * 2000 + (j 0).val := by
    show win0_2.index t (0 : Fin 2) * 2000 + 1 * (j 0).val = _; rw [e4]; omega
  have r1 : ((((cfg0.win 2).blk t).view.emb j) 1).val = (j 1).val := by
    show win0_2.index t (1 : Fin 2) * 32 + 1 * (j 1).val = _; rw [e5]; omega
  rw [iblk0_0_apply V c t (ix2 (j 0) k) (ix2 ((((cfg0.win 2).blk t).view.emb j) 0) k) r0 rfl,
    iblk0_1_apply V c t (ix2 k (j 1)) (ix2 k ((((cfg0.win 2).blk t).view.emb j) 1)) rfl r1]

/-- An index of the result array is in point t's block iff each coordinate is in the block's range on its axis. -/
theorem mem_blk0 (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v30).slice (win0_2.rect t)).set ↔ _
  rw [View.set_slice_whole, Rect.mem_set_unit]
  exact Iff.rfl

/-- Every index of the result array is in the block of the point its row falls in. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := N_0
  let t : Fin cfg0.N := ⟨(i 0).val / 2000, by rw [hN]; omega⟩
  have ht : t.val = (i 0).val / 2000 := rfl
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 32 ≤ (i 1).val ∧ (i 1).val < win0_2.index t (1 : Fin 2) * 32 + 32; rw [e5]; omega

/-- After the launch the result array is the product of the two arrays as the launch found them. -/
theorem final0 (c : Dev nD) :
    (dat0 V c).arrAt 2 cfg0.N = mmArr (a := 100000) (n := 1433) (b := 32) (V c main_arg0) (V c main_arg1) :=
  (dat0 V c).arrAt_eq_of_cover 2 _ (fun t _ => flushed0_eq V c t) (cover0)

end Cert.KernelIdeal.Hand

end
-- ==== Proof.Blocks1.lean ====
/-
  Launch 1, block by block, is one product of whole arrays.

  The launch runs over 50 blocks of 2000 rows.  At block t the body reads rows 2000·t … 2000·t + 1999 of the left
  array and the whole right array, and writes rows 2000·t … of the result: entry (p, q) of the block is the sum over k of
  left (2000·t + p, k) · right (k, q).  So each block written back is that block of the one array
  i ↦ ∑ k, left (i₀, k) · right (k, i₁), and the 50 blocks cover the result array.  This holds for any contents `V` the
  launch finds in its arrays.
-/
import proofs.«143425_j3564822856025_1_alg».proof.Proof.Gen.KernelIdeal.Frame
import proofs.«143425_j3564822856025_1_alg».proof.Proof.Pay
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem hz2' : (![0, 0] : Fin 2 → Nat) = fun _ => 0 := funext fun a => by fin_cases a <;> rfl

variable (V : (c : Dev nD) → (b : Ref sig .tc) → Buf (Elt Ideal) ((c : Thread nD τ).loc b))

/-- The body's result at an entry of its block, over any block contents. -/
theorem pay1_at (x0 : Vec Ideal S2000x32 .f32) (x1 : Vec Ideal S32x16 .f32) (y : S2000x16.Idx) :
    k1_pay1 (F := Ideal) x0 x1 y = ∑ k : Fin 32, x0 (ix2 (y 0) k) * x1 (ix2 k (y 1)) := by
  exact (congrArg (k1_pay1 (F := Ideal) x0 x1) (eq_ix2 y)).trans (pay1_apply x0 x1 (y 0) (y 1))

/-- The printed index maps over the grid: the row windows sit at block t, the weight window at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t is rows 2000·t … of the left array. -/
theorem iblk1_0_apply (c : Dev nD) (t : Fin cfg1.N) (y : S2000x32.Idx) (i : S100000x32.Idx)
    (h0 : (i 0).val = t.val * 2000 + (y 0).val) (h1 : (i 1).val = (y 1).val) :
    (iblk1 V c 0 t : Vec Ideal S2000x32 .f32) y = (V c main_v47 : S100000x32.Idx → EReal) i := by
  obtain ⟨e0, e1, -, -, -, -⟩ := idx_facts1 t
  unfold iblk1
  rw [View.read_apply]
  show V c main_v47 _ = V c main_v47 _
  refine congrArg (V c main_v47) (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 32 + 1 * (y 1).val = (i 1).val; rw [e1, h1]; omega

/-- The right window's block at every point is the whole right array. -/
theorem iblk1_1_apply (c : Dev nD) (t : Fin cfg1.N) (y i : S32x16.Idx)
    (h0 : (i 0).val = (y 0).val) (h1 : (i 1).val = (y 1).val) :
    (iblk1 V c 1 t : Vec Ideal S32x16 .f32) y = (V c main_arg3 : S32x16.Idx → EReal) i := by
  obtain ⟨-, -, e2, e3, -, -⟩ := idx_facts1 t
  unfold iblk1
  rw [View.read_apply]
  show V c main_arg3 _ = V c main_arg3 _
  refine congrArg (V c main_arg3) (funext fun a => Fin.ext ?_)
  match a with
  | ⟨0, _⟩ => show win1_1.index t (0 : Fin 2) * 32 + 1 * (y 0).val = (i 0).val; rw [e2, h0]; omega
  | ⟨1, _⟩ => show win1_1.index t (1 : Fin 2) * 16 + 1 * (y 1).val = (i 1).val; rw [e3, h1]; omega

/-- What point t writes back is block t of the product of the two arrays as the launch finds them. -/
theorem flushed1_eq (c : Dev nD) (t : Fin cfg1.N) :
    (dat1 V c).flushed 2 t
      = ((cfg1.win 2).blk t).view.read (Elt Ideal) (mmArr (a := 100000) (n := 32) (b := 16) (V c main_v47) (V c main_arg3)) := by
  show (cfg1.win 2).cut (grid1.coords t) ((dat1 V c).after 2 t) = _
  rw [after1_2]
  unfold out1_2
  rw [View.canon_unit_zero hz2']
  simp only [View.ld_unit_zero (S := S2000x32) hz2', View.ld_unit_zero (S := S32x16) hz2']
  obtain ⟨-, -, -, -, e4, e5⟩ := idx_facts1 t
  funext j
  refine (pay1_at _ _ j).trans ?_
  show _ = mmArr (a := 100000) (n := 32) (b := 16) (V c main_v47) (V c main_arg3) (((cfg1.win 2).blk t).view.emb j)
  unfold mmArr
  refine Finset.sum_congr rfl fun k _ => ?_
  have hj0 : (j 0).val < 2000 := (j 0).isLt
  have hj1 : (j 1).val < 16 := (j 1).isLt
  have r0 : ((((cfg1.win 2).blk t).view.emb j) 0).val = t.val * 2000 + (j 0).val := by
    show win1_2.index t (0 : Fin 2) * 2000 + 1 * (j 0).val = _; rw [e4]; omega
  have r1 : ((((cfg1.win 2).blk t).view.emb j) 1).val = (j 1).val := by
    show win1_2.index t (1 : Fin 2) * 16 + 1 * (j 1).val = _; rw [e5]; omega
  rw [iblk1_0_apply V c t (ix2 (j 0) k) (ix2 ((((cfg1.win 2).blk t).view.emb j) 0) k) r0 rfl,
    iblk1_1_apply V c t (ix2 k (j 1)) (ix2 k ((((cfg1.win 2).blk t).view.emb j) 1)) rfl r1]

/-- An index of the result array is in point t's block iff each coordinate is in the block's range on its axis. -/
theorem mem_blk1 (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v48).slice (win1_2.rect t)).set ↔ _
  rw [View.set_slice_whole, Rect.mem_set_unit]
  exact Iff.rfl

/-- Every index of the result array is in the block of the point its row falls in. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  let t : Fin cfg1.N := ⟨(i 0).val / 2000, by rw [hN]; omega⟩
  have ht : t.val = (i 0).val / 2000 := rfl
  obtain ⟨-, -, -, -, e4, e5⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 16 ≤ (i 1).val ∧ (i 1).val < win1_2.index t (1 : Fin 2) * 16 + 16; rw [e5]; omega

/-- After the launch the result array is the product of the two arrays as the launch found them. -/
theorem final1 (c : Dev nD) :
    (dat1 V c).arrAt 2 cfg1.N = mmArr (a := 100000) (n := 32) (b := 16) (V c main_v47) (V c main_arg3) :=
  (dat1 V c).arrAt_eq_of_cover 2 _ (fun t _ => flushed1_eq V c t) (cover1)

end Cert.KernelIdeal.Hand

end
-- ==== Proof.Blocks2.lean ====
/-
  The last launch, block by block, is one row-wise log-softmax of whole arrays.

  The launch runs over 100 blocks of 1000 rows.  At block t the body reads rows 1000·t … 1000·t + 999 of the hidden
  array, the whole weight matrix and the bias row, and writes rows 1000·t … of the result: entry (p, q) of the block is
  the log-softmax, at q, of the logits of row 1000·t + p.  A row's log-softmax involves that row only, so each block
  written back is that block of the one array `lsmArr`, and the 100 blocks cover the result array.  This holds for any
  contents `V` the launch finds in its arrays.
-/
import proofs.«143425_j3564822856025_1_alg».proof.Proof.Gen.KernelIdeal.Frame
import proofs.«143425_j3564822856025_1_alg».proof.Proof.Pay
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem hz2'' : (![0, 0] : Fin 2 → Nat) = fun _ => 0 := funext fun a => by fin_cases a <;> rfl

/-- The log-softmax of a row depends on the row's logits and on the position only. -/
theorem lsmRow_congr {n : ℕ} (f g : Fin n → EReal) (q q' : Fin n) (hf : f = g) (hq : q.val = q'.val) :
    lsmRow f q = lsmRow g q' := by
  subst hf
  rw [Fin.ext hq]

variable (V : (c : Dev nD) → (b : Ref sig .tc) → Buf (Elt Ideal) ((c : Thread nD τ).loc b))

/-- The body's result at an entry of its block, over any block contents. -/
theorem pay2_at (x0 : Vec Ideal S1000x16 .f32) (x1 : Vec Ideal S16x1433 .f32) (x2 : Vec Ideal S1x1433 .f32)
    (y : S1000x1433.Idx) :
    k2_pay1 (F := Ideal) x0 x1 x2 y
      = lsmRow (logitRow (a := 1000) (n := 16) (b := 1433) x0 x1 (fun d => x2 (ix2 (0 : Fin 1) d)) (y 0)) (y 1) := by
  exact (congrArg (k2_pay1 (F := Ideal) x0 x1 x2) (eq_ix2 y)).trans (pay2_apply x0 x1 x2 (y 0) (y 1))

/-- The printed index maps over the grid: the row windows sit at block t, the weight and bias windows at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The hidden window's block at point t is rows 1000·t … of the hidden array. -/
theorem iblk2_0_apply (c : Dev nD) (t : Fin cfg2.N) (y : S1000x16.Idx) (i : S100000x16.Idx)
    (h0 : (i 0).val = t.val * 1000 + (y 0).val) (h1 : (i 1).val = (y 1).val) :
    (iblk2 V c 0 t : Vec Ideal S1000x16 .f32) y = (V c main_v65 : S100000x16.Idx → EReal) i := by
  obtain ⟨e0, e1, -, -, -, -, -, -⟩ := idx_facts2 t
  unfold iblk2
  rw [View.read_apply]
  show V c main_v65 _ = V c main_v65 _
  refine congrArg (V c main_v65) (funext fun a => Fin.ext ?_)
  match a with
  | ⟨0, _⟩ => show win2_0.index t (0 : Fin 2) * 1000 + 1 * (y 0).val = (i 0).val; rw [e0, h0]; omega
  | ⟨1, _⟩ => show win2_0.index t (1 : Fin 2) * 16 + 1 * (y 1).val = (i 1).val; rw [e1, h1]; omega

/-- The weight window's block at every point is the whole weight matrix. -/
theorem iblk2_1_apply (c : Dev nD) (t : Fin cfg2.N) (y : S16x1433.Idx) :
    (iblk2 V c 1 t : Vec Ideal S16x1433 .f32) y = (V c main_arg5 : S16x1433.Idx → EReal) y := by
  obtain ⟨-, -, e2, e3, -, -, -, -⟩ := idx_facts2 t
  unfold iblk2
  rw [View.read_apply]
  show V c main_arg5 _ = V c main_arg5 _
  refine congrArg (V c main_arg5) (funext fun a => Fin.ext ?_)
  match a with
  | ⟨0, _⟩ => show win2_1.index t (0 : Fin 2) * 16 + 1 * (y 0).val = (y 0).val; rw [e2]; omega
  | ⟨1, _⟩ => show win2_1.index t (1 : Fin 2) * 1433 + 1 * (y 1).val = (y 1).val; rw [e3]; omega

/-- The bias window's block at every point is the whole bias row. -/
theorem iblk2_2_apply (c : Dev nD) (t : Fin cfg2.N) (y : S1x1433.Idx) :
    (iblk2 V c 2 t : Vec Ideal S1x1433 .f32) y = (V c main_v66 : S1x1433.Idx → EReal) y := by
  obtain ⟨-, -, -, -, e4, e5, -, -⟩ := idx_facts2 t
  unfold iblk2
  rw [View.read_apply]
  show V c main_v66 _ = V c main_v66 _
  refine congrArg (V c main_v66) (funext fun a => Fin.ext ?_)
  match a with
  | ⟨0, _⟩ => show win2_2.index t (0 : Fin 2) * 1 + 1 * (y 0).val = (y 0).val; rw [e4]; omega
  | ⟨1, _⟩ => show win2_2.index t (1 : Fin 2) * 1433 + 1 * (y 1).val = (y 1).val; rw [e5]; omega

/-- What point t writes back is block t of the row-wise log-softmax of the arrays as the launch finds them. -/
theorem flushed2_eq (c : Dev nD) (t : Fin cfg2.N) :
    (dat2 V c).flushed 3 t
      = ((cfg2.win 3).blk t).view.read (Elt Ideal)
          (lsmArr (a := 100000) (n := 16) (b := 1433) (V c main_v65) (V c main_arg5) (fun d => V c main_v66 (ix2 (0 : Fin 1) d))) := by
  show (cfg2.win 3).cut (grid2.coords t) ((dat2 V c).after 3 t) = _
  rw [after2_3]
  unfold out2_3
  rw [View.canon_unit_zero hz2'']
  simp only [View.ld_unit_zero (S := S1000x16) hz2'', View.ld_unit_zero (S := S16x1433) hz2'', View.ld_unit_zero (S := S1x1433) hz2'']
  obtain ⟨-, -, -, -, -, -, e6, e7⟩ := idx_facts2 t
  funext j
  refine (pay2_at _ _ _ j).trans ?_
  show _ = lsmArr (a := 100000) (n := 16) (b := 1433) (V c main_v65) (V c main_arg5) (fun d => V c main_v66 (ix2 (0 : Fin 1) d))
      (((cfg2.win 3).blk t).view.emb j)
  unfold lsmArr
  have hj0 : (j 0).val < 1000 := (j 0).isLt
  have hj1 : (j 1).val < 1433 := (j 1).isLt
  have r0 : ((((cfg2.win 3).blk t).view.emb j) 0).val = t.val * 1000 + (j 0).val := by
    show win2_3.index t (0 : Fin 2) * 1000 + 1 * (j 0).val = _; rw [e6]; omega
  have r1 : ((((cfg2.win 3).blk t).view.emb j) 1).val = (j 1).val := by
    show win2_3.index t (1 : Fin 2) * 1433 + 1 * (j 1).val = _; rw [e7]; omega
  refine lsmRow_congr (n := 1433) _ _ _ _ (funext fun d => ?_) r1.symm
  unfold logitRow
  refine congrArg₂ (· + ·) (Finset.sum_congr rfl fun k _ => ?_) (iblk2_2_apply V c t (ix2 (0 : Fin 1) d))
  rw [iblk2_0_apply V c t (ix2 (j 0) k) (ix2 ((((cfg2.win 3).blk t).view.emb j) 0) k) r0 rfl, iblk2_1_apply V c t (ix2 k d)]

/-- An index of the result array is in point t's block iff each coordinate is in the block's range on its axis. -/
theorem mem_blk2 (t : Fin cfg2.N) (i : S100000x1433.Idx) :
    i ∈ ((cfg2.win 3).blk t).view.set ↔ ∀ a : Fin 2, win2_3.index t a * S1000x1433.size a ≤ (i a).val ∧ (i a).val < win2_3.index t a * S1000x1433.size a + S1000x1433.size a := by
  show i ∈ ((View.whole main_v67).slice (win2_3.rect t)).set ↔ _
  rw [View.set_slice_whole, Rect.mem_set_unit]
  exact Iff.rfl

/-- Every index of the result array is in the block of the point its row falls in. -/
theorem cover2 (i : S100000x1433.Idx) : ∃ t : Fin cfg2.N, (cfg2.win 3).flush t = true ∧ i ∈ ((cfg2.win 3).blk t).view.set := by
  have hi0 : (i 0).val < 100000 := (i 0).isLt
  have hi1 : (i 1).val < 1433 := (i 1).isLt
  have hN : cfg2.N = 100 := N_2
  let t : Fin cfg2.N := ⟨(i 0).val / 1000, by rw [hN]; omega⟩
  have ht : t.val = (i 0).val / 1000 := rfl
  obtain ⟨-, -, -, -, -, -, e6, e7⟩ := idx_facts2 t
  refine ⟨t, flush2_3 t, ?_⟩
  rw [mem_blk2]
  intro a
  match a with
  | ⟨0, _⟩ => show win2_3.index t (0 : Fin 2) * 1000 ≤ (i 0).val ∧ (i 0).val < win2_3.index t (0 : Fin 2) * 1000 + 1000; rw [e6, ht]; omega
  | ⟨1, _⟩ => show win2_3.index t (1 : Fin 2) * 1433 ≤ (i 1).val ∧ (i 1).val < win2_3.index t (1 : Fin 2) * 1433 + 1433; rw [e7]; omega

/-- After the launch the result array is the row-wise log-softmax of the arrays as the launch found them. -/
theorem final2 (c : Dev nD) :
    (dat2 V c).arrAt 3 cfg2.N
      = lsmArr (a := 100000) (n := 16) (b := 1433) (V c main_v65) (V c main_arg5) (fun d => V c main_v66 (ix2 (0 : Fin 1) d)) :=
  (dat2 V c).arrAt_eq_of_cover 3 _ (fun t _ => flushed2_eq V c t) (cover2)

end Cert.KernelIdeal.Hand

end
-- ==== Proof.KValue.lean ====
/-
  The kernel program's result, as the stages' composition of the arguments.

  Walking the program's segment boundaries from the launch to the end: the first stretches leave the index lists, the node
  quantity and the normalisation; the first launch leaves the product of the features with the first weight matrix; the
  next stretch its aggregation layer; the second launch the product with the second weight matrix; the next stretch the
  second aggregation layer and the bias as a row; the last launch the row-wise log-softmax of the closing logits.  Every
  buffer a later segment reads is followed through the segments that leave it alone.
-/
import proofs.«143425_j3564822856025_1_alg».proof.Proof.Gen.KernelIdeal.Frame
import proofs.«143425_j3564822856025_1_alg».proof.Proof.HostK
import proofs.«143425_j3564822856025_1_alg».proof.Proof.Blocks0
import proofs.«143425_j3564822856025_1_alg».proof.Proof.Blocks1
import proofs.«143425_j3564822856025_1_alg».proof.Proof.Blocks2
import Idealize.ShloMosaic.Lib.ValueLayout

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The source index list. -/
abbrev kS : IVec Cert.ReferenceIdeal.S3300000 32 := Cert.ReferenceIdeal.Hand.srcF (m ((c : Thread nD τ).loc main_arg7))
/-- The target index list. -/
abbrev kD : IVec Cert.ReferenceIdeal.S3300000 32 := Cert.ReferenceIdeal.Hand.dstF (m ((c : Thread nD τ).loc main_arg7))
/-- The edges' normalisation. -/
def kN : FVec Ideal Cert.ReferenceIdeal.S3300000 .f32 := Cert.ReferenceIdeal.Hand.normF (F := Ideal) (Cert.ReferenceIdeal.Hand.disqF (F := Ideal) (kD m c)) (kS m c) (kD m c)
/-- The first layer's output. -/
def kA1 : FVec Ideal Cert.ReferenceIdeal.S100000x32 .f32 :=
  Cert.ReferenceIdeal.Hand.layer32 (F := Ideal) (kN m c) (kS m c) (kD m c) (m ((c : Thread nD τ).loc main_arg2)) (mmArr (a := 100000) (n := 1433) (b := 32) (m ((c : Thread nD τ).loc main_arg0)) (m ((c : Thread nD τ).loc main_arg1)))
/-- The second layer's output. -/
def kA2 : FVec Ideal Cert.ReferenceIdeal.S100000x16 .f32 :=
  Cert.ReferenceIdeal.Hand.layer16 (F := Ideal) (kN m c) (kS m c) (kD m c) (m ((c : Thread nD τ).loc main_arg4)) (mmArr (a := 100000) (n := 32) (b := 16) (kA1 m c) (m ((c : Thread nD τ).loc main_arg3)))
/-- The result: the row-wise log-softmax of the closing logits. -/
def kOut : (⟨2, ![100000, 1433]⟩ : Shape).Idx → EReal :=
  lsmArr (a := 100000) (n := 16) (b := 1433) (kA2 m c) (m ((c : Thread nD τ).loc main_arg5)) (fun d => ((m ((c : Thread nD τ).loc main_arg6)) : S1433.Idx → EReal) (ix1 d))

/-! ## Before the first launch -/

theorem w2_v3 : W2 m ρ c (Proc.devRef .tc main_v3) = kS m c := wrA_v3 (W0 m ρ c)
theorem w2_v6 : W2 m ρ c (Proc.devRef .tc main_v6) = kD m c := wrA_v6 (W0 m ρ c)
theorem w2_v14 : W2 m ρ c (Proc.devRef .tc main_v14) = Cert.ReferenceIdeal.Hand.disqF (F := Ideal) (kD m c) := wrA_v14 (W0 m ρ c)
theorem w2_arg0 : W2 m ρ c (Proc.devRef .tc main_arg0) = (m ((c : Thread nD τ).loc main_arg0)) := keepA_arg0 (W0 m ρ c)
theorem w2_arg1 : W2 m ρ c (Proc.devRef .tc main_arg1) = (m ((c : Thread nD τ).loc main_arg1)) := keepA_arg1 (W0 m ρ c)
theorem w2_arg2 : W2 m ρ c (Proc.devRef .tc main_arg2) = (m ((c : Thread nD τ).loc main_arg2)) := keepA_arg2 (W0 m ρ c)
theorem w2_arg3 : W2 m ρ c (Proc.devRef .tc main_arg3) = (m ((c : Thread nD τ).loc main_arg3)) := keepA_arg3 (W0 m ρ c)
theorem w2_arg4 : W2 m ρ c (Proc.devRef .tc main_arg4) = (m ((c : Thread nD τ).loc main_arg4)) := keepA_arg4 (W0 m ρ c)
theorem w2_arg5 : W2 m ρ c (Proc.devRef .tc main_arg5) = (m ((c : Thread nD τ).loc main_arg5)) := keepA_arg5 (W0 m ρ c)
theorem w2_arg6 : W2 m ρ c (Proc.devRef .tc main_arg6) = (m ((c : Thread nD τ).loc main_arg6)) := keepA_arg6 (W0 m ρ c)

theorem w3_v29 : W3 m ρ c (Proc.devRef .tc main_v29) = kN m c := by
  refine (wrC_v29 (W2 m ρ c)).trans ?_
  rw [w2_v14, w2_v3, w2_v6]; rfl
theorem w3_v3 : W3 m ρ c (Proc.devRef .tc main_v3) = kS m c := (keepC_v3 (W2 m ρ c)).trans (w2_v3 m ρ c)
theorem w3_v6 : W3 m ρ c (Proc.devRef .tc main_v6) = kD m c := (keepC_v6 (W2 m ρ c)).trans (w2_v6 m ρ c)
theorem w3_arg0 : W3 m ρ c (Proc.devRef .tc main_arg0) = (m ((c : Thread nD τ).loc main_arg0)) := (keepC_arg0 (W2 m ρ c)).trans (w2_arg0 m ρ c)
theorem w3_arg1 : W3 m ρ c (Proc.devRef .tc main_arg1) = (m ((c : Thread nD τ).loc main_arg1)) := (keepC_arg1 (W2 m ρ c)).trans (w2_arg1 m ρ c)
theorem w3_arg2 : W3 m ρ c (Proc.devRef .tc main_arg2) = (m ((c : Thread nD τ).loc main_arg2)) := (keepC_arg2 (W2 m ρ c)).trans (w2_arg2 m ρ c)
theorem w3_arg3 : W3 m ρ c (Proc.devRef .tc main_arg3) = (m ((c : Thread nD τ).loc main_arg3)) := (keepC_arg3 (W2 m ρ c)).trans (w2_arg3 m ρ c)
theorem w3_arg4 : W3 m ρ c (Proc.devRef .tc main_arg4) = (m ((c : Thread nD τ).loc main_arg4)) := (keepC_arg4 (W2 m ρ c)).trans (w2_arg4 m ρ c)
theorem w3_arg5 : W3 m ρ c (Proc.devRef .tc main_arg5) = (m ((c : Thread nD τ).loc main_arg5)) := (keepC_arg5 (W2 m ρ c)).trans (w2_arg5 m ρ c)
theorem w3_arg6 : W3 m ρ c (Proc.devRef .tc main_arg6) = (m ((c : Thread nD τ).loc main_arg6)) := (keepC_arg6 (W2 m ρ c)).trans (w2_arg6 m ρ c)

/-! ## The first launch and its layer -/

theorem w4_v30 : W4 m ρ c (Proc.devRef .tc main_v30) = mmArr (a := 100000) (n := 1433) (b := 32) (m ((c : Thread nD τ).loc main_arg0)) (m ((c : Thread nD τ).loc main_arg1)) := by
  refine (W4_arr m ρ c 2).trans ((final0 (V3 m ρ) c).trans ?_)
  show mmArr (a := 100000) (n := 1433) (b := 32) (W3 m ρ c (Proc.devRef .tc main_arg0)) (W3 m ρ c (Proc.devRef .tc main_arg1)) = _
  rw [w3_arg0, w3_arg1]
theorem w4_v29 : W4 m ρ c (Proc.devRef .tc main_v29) = W3 m ρ c (Proc.devRef .tc main_v29) := W4_of_ne m ρ c main_v29 (by decide)
theorem w4_v3 : W4 m ρ c (Proc.devRef .tc main_v3) = W3 m ρ c (Proc.devRef .tc main_v3) := W4_of_ne m ρ c main_v3 (by decide)
theorem w4_v6 : W4 m ρ c (Proc.devRef .tc main_v6) = W3 m ρ c (Proc.devRef .tc main_v6) := W4_of_ne m ρ c main_v6 (by decide)
theorem w4_arg2 : W4 m ρ c (Proc.devRef .tc main_arg2) = W3 m ρ c (Proc.devRef .tc main_arg2) := W4_of_ne m ρ c main_arg2 (by decide)
theorem w4_arg3 : W4 m ρ c (Proc.devRef .tc main_arg3) = W3 m ρ c (Proc.devRef .tc main_arg3) := W4_of_ne m ρ c main_arg3 (by decide)
theorem w4_arg4 : W4 m ρ c (Proc.devRef .tc main_arg4) = W3 m ρ c (Proc.devRef .tc main_arg4) := W4_of_ne m ρ c main_arg4 (by decide)
theorem w4_arg5 : W4 m ρ c (Proc.devRef .tc main_arg5) = W3 m ρ c (Proc.devRef .tc main_arg5) := W4_of_ne m ρ c main_arg5 (by decide)
theorem w4_arg6 : W4 m ρ c (Proc.devRef .tc main_arg6) = W3 m ρ c (Proc.devRef .tc main_arg6) := W4_of_ne m ρ c main_arg6 (by decide)

theorem w6_v47 : W6 m ρ c (Proc.devRef .tc main_v47) = kA1 m c := by
  refine (wrD_v47 (W4 m ρ c)).trans ?_
  rw [w4_v29, w4_v3, w4_v6, w4_arg2, w4_v30, w3_v29, w3_v3, w3_v6, w3_arg2]; rfl
theorem w6_v29 : W6 m ρ c (Proc.devRef .tc main_v29) = W3 m ρ c (Proc.devRef .tc main_v29) := (keepD_v29 (W4 m ρ c)).trans (w4_v29 m ρ c)
theorem w6_v3 : W6 m ρ c (Proc.devRef .tc main_v3) = W3 m ρ c (Proc.devRef .tc main_v3) := (keepD_v3 (W4 m ρ c)).trans (w4_v3 m ρ c)
theorem w6_v6 : W6 m ρ c (Proc.devRef .tc main_v6) = W3 m ρ c (Proc.devRef .tc main_v6) := (keepD_v6 (W4 m ρ c)).trans (w4_v6 m ρ c)
theorem w6_arg3 : W6 m ρ c (Proc.devRef .tc main_arg3) = W3 m ρ c (Proc.devRef .tc main_arg3) := (keepD_arg3 (W4 m ρ c)).trans (w4_arg3 m ρ c)
theorem w6_arg4 : W6 m ρ c (Proc.devRef .tc main_arg4) = W3 m ρ c (Proc.devRef .tc main_arg4) := (keepD_arg4 (W4 m ρ c)).trans (w4_arg4 m ρ c)
theorem w6_arg5 : W6 m ρ c (Proc.devRef .tc main_arg5) = W3 m ρ c (Proc.devRef .tc main_arg5) := (keepD_arg5 (W4 m ρ c)).trans (w4_arg5 m ρ c)
theorem w6_arg6 : W6 m ρ c (Proc.devRef .tc main_arg6) = W3 m ρ c (Proc.devRef .tc main_arg6) := (keepD_arg6 (W4 m ρ c)).trans (w4_arg6 m ρ c)

/-! ## The second launch and its layer -/

theorem w7_v48 : W7 m ρ c (Proc.devRef .tc main_v48) = mmArr (a := 100000) (n := 32) (b := 16) (kA1 m c) (m ((c : Thread nD τ).loc main_arg3)) := by
  refine (W7_arr m ρ c 2).trans ((final1 (V6 m ρ) c).trans ?_)
  show mmArr (a := 100000) (n := 32) (b := 16) (W6 m ρ c (Proc.devRef .tc main_v47)) (W6 m ρ c (Proc.devRef .tc main_arg3)) = _
  rw [w6_v47, w6_arg3, w3_arg3]
theorem w7_v29 : W7 m ρ c (Proc.devRef .tc main_v29) = W3 m ρ c (Proc.devRef .tc main_v29) := (W7_of_ne m ρ c main_v29 (by decide)).trans (w6_v29 m ρ c)
theorem w7_v3 : W7 m ρ c (Proc.devRef .tc main_v3) = W3 m ρ c (Proc.devRef .tc main_v3) := (W7_of_ne m ρ c main_v3 (by decide)).trans (w6_v3 m ρ c)
theorem w7_v6 : W7 m ρ c (Proc.devRef .tc main_v6) = W3 m ρ c (Proc.devRef .tc main_v6) := (W7_of_ne m ρ c main_v6 (by decide)).trans (w6_v6 m ρ c)
theorem w7_arg4 : W7 m ρ c (Proc.devRef .tc main_arg4) = W3 m ρ c (Proc.devRef .tc main_arg4) := (W7_of_ne m ρ c main_arg4 (by decide)).trans (w6_arg4 m ρ c)
theorem w7_arg5 : W7 m ρ c (Proc.devRef .tc main_arg5) = W3 m ρ c (Proc.devRef .tc main_arg5) := (W7_of_ne m ρ c main_arg5 (by decide)).trans (w6_arg5 m ρ c)
theorem w7_arg6 : W7 m ρ c (Proc.devRef .tc main_arg6) = W3 m ρ c (Proc.devRef .tc main_arg6) := (W7_of_ne m ρ c main_arg6 (by decide)).trans (w6_arg6 m ρ c)

theorem w9_v65 : W9 m ρ c (Proc.devRef .tc main_v65) = kA2 m c := by
  refine (wrG_v65 (W7 m ρ c)).trans ?_
  rw [w7_v29, w7_v3, w7_v6, w7_arg4, w7_v48, w3_v29, w3_v3, w3_v6, w3_arg4]; rfl
theorem w9_arg5 : W9 m ρ c (Proc.devRef .tc main_arg5) = W3 m ρ c (Proc.devRef .tc main_arg5) := (keepG_arg5 (W7 m ρ c)).trans (w7_arg5 m ρ c)
theorem w9_arg6 : W9 m ρ c (Proc.devRef .tc main_arg6) = W3 m ρ c (Proc.devRef .tc main_arg6) := (keepG_arg6 (W7 m ρ c)).trans (w7_arg6 m ρ c)

/-! ## The last launch -/

theorem w10_v65 : W10 m ρ c (Proc.devRef .tc main_v65) = kA2 m c := (keepH_v65 (W9 m ρ c)).trans (w9_v65 m ρ c)
theorem w10_arg5 : W10 m ρ c (Proc.devRef .tc main_arg5) = (m ((c : Thread nD τ).loc main_arg5)) := (keepH_arg5 (W9 m ρ c)).trans ((w9_arg5 m ρ c).trans (w3_arg5 m ρ c))
/-- The bias as a row: entry (0, d) of the row is entry d of the bias vector. -/
theorem w10_v66 (d : Fin 1433) : (W10 m ρ c (Proc.devRef .tc main_v66) : S1x1433.Idx → EReal) (ix2 (0 : Fin 1) d) = ((m ((c : Thread nD τ).loc main_arg6)) : S1433.Idx → EReal) (ix1 d) := by
  rw [show W10 m ρ c (Proc.devRef .tc main_v66) = _ from wrH_v66 (W9 m ρ c), w9_arg6, w3_arg6]
  exact shapeCast_a_1a_apply (a := 1433) _ shapeCasts_S1433_S1x1433 0 d

/-- After the program the result array is the row-wise log-softmax of the closing logits. -/
theorem w11_v67 : W11 m ρ c (Proc.devRef .tc main_v67) = kOut m c := by
  refine (W11_arr m ρ c 3).trans ((final2 (V10 m ρ) c).trans ?_)
  show lsmArr (a := 100000) (n := 16) (b := 1433) (W10 m ρ c (Proc.devRef .tc main_v65)) (W10 m ρ c (Proc.devRef .tc main_arg5))
      (fun d => (W10 m ρ c (Proc.devRef .tc main_v66) : S1x1433.Idx → EReal) (ix2 (0 : Fin 1) d)) = _
  rw [w10_v65, w10_arg5, funext (w10_v66 m ρ c)]
  rfl

end Cert.KernelIdeal.Hand

end
-- ==== Proof.RefValue.lean ====
/-
  The reference's run, read back stage by stage.

  The reference is a straight line of 124 array operations.  Cut into thirteen consecutive stretches, each stretch writes
  one stage of the computation (the index lists; the node quantity; a product; the edges' normalisation; an aggregation
  layer; a product; the normalisation once more; the second aggregation layer; the closing product and bias; the
  four steps of the log-softmax) from buffers earlier stretches left, and leaves every other buffer alone.  Composing the readings gives
  the result buffer as the stages' composition of the eight arguments.  Nothing here depends on what a float is.
-/
import proofs.«143425_j3564822856025_1_alg».proof.Proof.RefOps
import proofs.«143425_j3564822856025_1_alg».proof.Proof.Stages
import Idealize.ShloMosaic.Lib.Pipeline.Frame

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Operations 1 … 7 of the reference. -/
abbrev opsA1 : List (HloOp τ sig (Elt F)) :=
  [ nullary main_v0 (iotaInDim S100000 32 0),
    unary main_arg7 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg7 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 8 … 21 of the reference. -/
abbrev opsA2 : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 … 22 of the reference. -/
abbrev opsB : List (HloOp τ sig (Elt F)) :=
  [ binary main_arg0 main_arg1 main_v15 ((fun l r => Host.dotGeneral dot_S100000x1433_S1433x32_S100000x32_1_0_0_1_n_n none l r) : (⟨S100000x1433, .f32⟩ : BufTy).Contents (Elt F) → (⟨S1433x32, .f32⟩ : BufTy).Contents (Elt F) → (⟨S100000x32, .f32⟩ : BufTy).Contents (Elt F)) ]

/-- Operations 23 … 41 of the reference. -/
abbrev opsC : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v14 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v14 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Operations 42 … 63 of the reference. -/
abbrev opsD : List (HloOp τ sig (Elt F)) :=
  [ unary main_v30 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v15 main_v37 main_v38 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v31 main_v39 (broadcastInDim S3300000x32 ![0, 1] bcast_S3300000x1_S3300000x32_0_1 : (⟨S3300000x1, .f32⟩ : BufTy).Contents (Elt F) → (⟨S3300000x32, .f32⟩ : BufTy).Contents (Elt F)),
    binary main_v39 main_v38 main_v40 (mulf : (⟨S3300000x32, .f32⟩ : BufTy).Contents (Elt F) → (⟨S3300000x32, .f32⟩ : BufTy).Contents (Elt F) → (⟨S3300000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg2 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf ]

/-- Operations 64 … 64 of the reference. -/
abbrev opsE : List (HloOp τ sig (Elt F)) :=
  [ binary main_v47 main_arg3 main_v48 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)) ]

/-- Operations 65 … 83 of the reference. -/
abbrev opsFn : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v14 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_11 (constantI S_ 32 0#32),
    unary main_c_11 main_v56 (broadcastInDim S3300000 ![] bcast_S_S3300000 : (⟨S_, .i32⟩ : BufTy).Contents (Elt F) → (⟨S3300000, .i32⟩ : BufTy).Contents (Elt F)),
    binary main_v6 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v58 (broadcastInDim S3300000 ![] bcast_S_S3300000 : (⟨S_, .i32⟩ : BufTy).Contents (Elt F) → (⟨S3300000, .i32⟩ : BufTy).Contents (Elt F)),
    binary main_v6 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v6 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v14 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v55 main_v62 main_v63 (mulf : (⟨S3300000, .f32⟩ : BufTy).Contents (Elt F) → (⟨S3300000, .f32⟩ : BufTy).Contents (Elt F) → (⟨S3300000, .f32⟩ : BufTy).Contents (Elt F)) ]

/-- Operations 84 … 105 of the reference. -/
abbrev opsGl : List (HloOp τ sig (Elt F)) :=
  [ unary main_v63 main_v64 (broadcastInDim S3300000x1 ![0] bcast_S3300000_S3300000x1_0 : (⟨S3300000, .f32⟩ : BufTy).Contents (Elt F) → (⟨S3300000x1, .f32⟩ : BufTy).Contents (Elt F)),
    nullary main_c_13 (constantI S_ 32 0#32),
    unary main_c_13 main_v65 (broadcastInDim S3300000 ![] bcast_S_S3300000 : (⟨S_, .i32⟩ : BufTy).Contents (Elt F) → (⟨S3300000, .i32⟩ : BufTy).Contents (Elt F)),
    binary main_v3 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v67 (broadcastInDim S3300000 ![] bcast_S_S3300000 : (⟨S_, .i32⟩ : BufTy).Contents (Elt F) → (⟨S3300000, .i32⟩ : BufTy).Contents (Elt F)),
    binary main_v3 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v3 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v48 main_v70 main_v71 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v64 main_v72 (broadcastInDim S3300000x16 ![0, 1] bcast_S3300000x1_S3300000x16_0_1 : (⟨S3300000x1, .f32⟩ : BufTy).Contents (Elt F) → (⟨S3300000x16, .f32⟩ : BufTy).Contents (Elt F)),
    binary main_v72 main_v71 main_v73 (mulf : (⟨S3300000x16, .f32⟩ : BufTy).Contents (Elt F) → (⟨S3300000x16, .f32⟩ : BufTy).Contents (Elt F) → (⟨S3300000x16, .f32⟩ : BufTy).Contents (Elt F)),
    nullary main_cst_15 (constant S_ .f32 0x00000000#32),
    unary main_cst_15 main_v74 (broadcastInDim S100000x16 ![] bcast_S_S100000x16 : (⟨S_, .f32⟩ : BufTy).Contents (Elt F) → (⟨S100000x16, .f32⟩ : BufTy).Contents (Elt F)),
    unary main_v6 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v77 (broadcastInDim S1x16 ![1] bcast_S16_S1x16_1 : (⟨S16, .f32⟩ : BufTy).Contents (Elt F) → (⟨S1x16, .f32⟩ : BufTy).Contents (Elt F)),
    unary main_v77 main_v78 (broadcastInDim S100000x16 ![0, 1] bcast_S1x16_S100000x16_0_1 : (⟨S1x16, .f32⟩ : BufTy).Contents (Elt F) → (⟨S100000x16, .f32⟩ : BufTy).Contents (Elt F)),
    binary main_v76 main_v78 main_v79 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v79) (TRef.of (T := ⟨S100000x16, .f32⟩) main_call2_v0) (TRef.of (T := ⟨S100000x16, .f32⟩) main_v80) maximumf ]

/-- Operations 106 … 109 of the reference. -/
abbrev opsH1 : List (HloOp τ sig (Elt F)) :=
  [ binary main_v80 main_arg5 main_v81 ((fun l r => Host.dotGeneral dot_S100000x16_S16x1433_S100000x1433_1_0_0_1_n_n none l r) : (⟨S100000x16, .f32⟩ : BufTy).Contents (Elt F) → (⟨S16x1433, .f32⟩ : BufTy).Contents (Elt F) → (⟨S100000x1433, .f32⟩ : BufTy).Contents (Elt F)),
    unary main_arg6 main_v82 (broadcastInDim S1x1433 ![1] bcast_S1433_S1x1433_1 : (⟨S1433, .f32⟩ : BufTy).Contents (Elt F) → (⟨S1x1433, .f32⟩ : BufTy).Contents (Elt F)),
    unary main_v82 main_v83 (broadcastInDim S100000x1433 ![0, 1] bcast_S1x1433_S100000x1433_0_1 : (⟨S1x1433, .f32⟩ : BufTy).Contents (Elt F) → (⟨S100000x1433, .f32⟩ : BufTy).Contents (Elt F)),
    binary main_v81 main_v83 main_v84 (addf : (⟨S100000x1433, .f32⟩ : BufTy).Contents (Elt F) → (⟨S100000x1433, .f32⟩ : BufTy).Contents (Elt F) → (⟨S100000x1433, .f32⟩ : BufTy).Contents (Elt F)) ]

/-- Operations 110 … 111 of the reference. -/
abbrev opsH2a0 : List (HloOp τ sig (Elt F)) :=
  [ TRef.nullary (TRef.of (T := ⟨S_, .f32⟩) main_call3_cst) (constant S_ .f32 0xFF800000#32),
    TRef.binary (TRef.of (T := ⟨S100000x1433, .f32⟩) main_v84) (TRef.of (T := ⟨S_, .f32⟩) main_call3_cst) (TRef.of (T := ⟨S100000, .f32⟩) main_call3_v0) (fun x v => Host.reduce FloatOps.maximumf x v reducesTo_S100000x1433_S100000_d1 h_S_) ]

/-- Operations 112 … 114 of the reference. -/
abbrev opsH2a1 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 115 … 117 of the reference. -/
abbrev opsH2b : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x1433, .f32⟩) main_call3_v4) (broadcastInDim S100000x1433 ![0, 1] bcast_S100000x1_S100000x1433_0_1),
    TRef.binary (TRef.of (T := ⟨S100000x1433, .f32⟩) main_v84) (TRef.of (T := ⟨S100000x1433, .f32⟩) main_call3_v4) (TRef.of (T := ⟨S100000x1433, .f32⟩) main_call3_v5) subf ]

/-- Operations 118 … 124 of the reference. -/
abbrev opsH2c : List (HloOp τ sig (Elt F)) :=
  [ TRef.unary (TRef.of (T := ⟨S100000x1433, .f32⟩) main_call3_v5) (TRef.of (T := ⟨S100000x1433, .f32⟩) main_call3_v6) Host.exp,
    TRef.nullary (TRef.of (T := ⟨S_, .f32⟩) main_call3_cst_1) (constant S_ .f32 0x00000000#32),
    TRef.binary (TRef.of (T := ⟨S100000x1433, .f32⟩) main_call3_v6) (TRef.of (T := ⟨S_, .f32⟩) main_call3_cst_1) (TRef.of (T := ⟨S100000, .f32⟩) main_call3_v7) (fun x v => Host.reduceAdd x v reducesTo_S100000x1433_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x1433, .f32⟩) main_call3_v10) (broadcastInDim S100000x1433 ![0, 1] bcast_S100000x1_S100000x1433_0_1),
    TRef.binary (TRef.of (T := ⟨S100000x1433, .f32⟩) main_call3_v5) (TRef.of (T := ⟨S100000x1433, .f32⟩) main_call3_v10) (TRef.of (T := ⟨S100000x1433, .f32⟩) main_v85) subf ]

/-- The program is the thirteen stretches one after the other. -/
theorem ops_split : (ops : List (HloOp τ sig (Elt F)))
    = opsA1 ++ (opsA2 ++ (opsB ++ (opsC ++ (opsD ++ (opsE ++ (opsFn ++ (opsGl ++ (opsH1 ++ (opsH2a0 ++ (opsH2a1 ++ (opsH2b ++ opsH2c))))))))))) := rfl

variable (V : Valuation τ sig (Elt F))

/-! ## What each stretch writes -/

theorem wrA1_v3 : after (opsA1 (F := F)) V (Proc.devRef .tc main_v3) = srcF (V (Proc.devRef .tc main_arg7)) := by after_results_simp <;> rfl
theorem wrA1_v6 : after (opsA1 (F := F)) V (Proc.devRef .tc main_v6) = dstF (V (Proc.devRef .tc main_arg7)) := by after_results_simp <;> rfl
theorem wrA2_v14 : after (opsA2 (F := F)) V (Proc.devRef .tc main_v14) = disqF (F := F) (V (Proc.devRef .tc main_v6)) := by after_results_simp <;> rfl
theorem wrB_v15 : after (opsB (F := F)) V (Proc.devRef .tc main_v15)
    = Host.dotGeneral (F := F) (φ₁ := .f32) (φ₂ := .f32) dot_S100000x1433_S1433x32_S100000x32_1_0_0_1_n_n none (V (Proc.devRef .tc main_arg0)) (V (Proc.devRef .tc main_arg1)) := by
  after_results_simp <;> rfl
theorem wrC_v30 : after (opsC (F := F)) V (Proc.devRef .tc main_v30) = normF (F := F) (V (Proc.devRef .tc main_v14)) (V (Proc.devRef .tc main_v3)) (V (Proc.devRef .tc main_v6)) := by
  after_results_simp <;> rfl
theorem wrD_v47 : after (opsD (F := F)) V (Proc.devRef .tc main_v47)
    = layer32 (F := F) (V (Proc.devRef .tc main_v30)) (V (Proc.devRef .tc main_v3)) (V (Proc.devRef .tc main_v6)) (V (Proc.devRef .tc main_arg2)) (V (Proc.devRef .tc main_v15)) := by
  after_results_simp <;> rfl
theorem wrE_v48 : after (opsE (F := F)) V (Proc.devRef .tc main_v48)
    = Host.dotGeneral (F := F) (φ₁ := .f32) (φ₂ := .f32) dot_S100000x32_S32x16_S100000x16_1_0_0_1_n_n none (V (Proc.devRef .tc main_v47)) (V (Proc.devRef .tc main_arg3)) := by
  after_results_simp <;> rfl
theorem wrFn_v63 : after (opsFn (F := F)) V (Proc.devRef .tc main_v63) = normF (F := F) (V (Proc.devRef .tc main_v14)) (V (Proc.devRef .tc main_v3)) (V (Proc.devRef .tc main_v6)) := by
  after_results_simp <;> rfl
theorem wrGl_v80 : after (opsGl (F := F)) V (Proc.devRef .tc main_v80)
    = layer16 (F := F) (V (Proc.devRef .tc main_v63)) (V (Proc.devRef .tc main_v3)) (V (Proc.devRef .tc main_v6)) (V (Proc.devRef .tc main_arg4)) (V (Proc.devRef .tc main_v48)) := by
  after_results_simp <;> rfl
theorem wrH1_v84 : after (opsH1 (F := F)) V (Proc.devRef .tc main_v84)
    = addBias (F := F) (Host.dotGeneral (F := F) (φ₁ := .f32) (φ₂ := .f32) dot_S100000x16_S16x1433_S100000x1433_1_0_0_1_n_n none (V (Proc.devRef .tc main_v80)) (V (Proc.devRef .tc main_arg5)))
        (V (Proc.devRef .tc main_arg6)) := by
  after_results_simp <;> rfl
/-- A buffer's contents seen at the buffer's own type, for the three buffers around the row maximum. -/
theorem strip_toBuf_v0 (v : FVec F S100000 .f32) :
    (TRef.of (T := ⟨S100000, .f32⟩) main_call3_v0).toBuf (Val := Elt F) v = v := rfl
theorem strip_ofBuf_v84 (v : FVec F S100000x1433 .f32) :
    (TRef.of (T := ⟨S100000x1433, .f32⟩) main_v84).ofBuf (Val := Elt F) v = v := rfl
theorem strip_cst (v : FVec F S_ .f32) :
    (TRef.of (T := ⟨S_, .f32⟩) main_call3_cst).ofBuf (Val := Elt F) ((TRef.of (T := ⟨S_, .f32⟩) main_call3_cst).toBuf (Val := Elt F) v) = v := rfl

theorem wrH2a0_v0 : after (opsH2a0 (F := F)) V (Proc.devRef .tc main_call3_v0)
    = Host.reduce FloatOps.maximumf (V (Proc.devRef .tc main_v84) : FVec F S100000x1433 .f32) (constant (F := F) S_ .f32 0xFF800000#32)
        reducesTo_S100000x1433_S100000_d1 h_S_ := by
  after_results_simp
  rw [strip_toBuf_v0, strip_ofBuf_v84, strip_cst]
theorem wrH2a1_v2 : after (opsH2a1 (F := F)) V (Proc.devRef .tc main_call3_v2)
    = maximumf (broadcastInDim S100000 ![] bcast_S_S100000 (constant (F := F) S_ .f32 0xFF800000#32)) (V (Proc.devRef .tc main_call3_v0) : FVec F S100000 .f32) := by
  after_results_simp <;> rfl
theorem wrH2b_v5 : after (opsH2b (F := F)) V (Proc.devRef .tc main_call3_v5)
    = subf (V (Proc.devRef .tc main_v84) : FVec F S100000x1433 .f32) (refKeepRows (F := F) (V (Proc.devRef .tc main_call3_v2))) := by
  after_results_simp <;> rfl
theorem wrH2c_v85 : after (opsH2c (F := F)) V (Proc.devRef .tc main_v85) = lsmFinish (F := F) (V (Proc.devRef .tc main_call3_v5)) := by
  after_results_simp <;> rfl

/-! ## What each stretch leaves alone -/

theorem keepA1_arg0 : after (opsA1 (F := F)) V (Proc.devRef .tc main_arg0) = V (Proc.devRef .tc main_arg0) := by after_results_simp <;> rfl
theorem keepA1_arg1 : after (opsA1 (F := F)) V (Proc.devRef .tc main_arg1) = V (Proc.devRef .tc main_arg1) := by after_results_simp <;> rfl
theorem keepA1_arg2 : after (opsA1 (F := F)) V (Proc.devRef .tc main_arg2) = V (Proc.devRef .tc main_arg2) := by after_results_simp <;> rfl
theorem keepA1_arg3 : after (opsA1 (F := F)) V (Proc.devRef .tc main_arg3) = V (Proc.devRef .tc main_arg3) := by after_results_simp <;> rfl
theorem keepA1_arg4 : after (opsA1 (F := F)) V (Proc.devRef .tc main_arg4) = V (Proc.devRef .tc main_arg4) := by after_results_simp <;> rfl
theorem keepA1_arg5 : after (opsA1 (F := F)) V (Proc.devRef .tc main_arg5) = V (Proc.devRef .tc main_arg5) := by after_results_simp <;> rfl
theorem keepA1_arg6 : after (opsA1 (F := F)) V (Proc.devRef .tc main_arg6) = V (Proc.devRef .tc main_arg6) := by after_results_simp <;> rfl
theorem keepA2_v3 : after (opsA2 (F := F)) V (Proc.devRef .tc main_v3) = V (Proc.devRef .tc main_v3) := by after_results_simp <;> rfl
theorem keepA2_v6 : after (opsA2 (F := F)) V (Proc.devRef .tc main_v6) = V (Proc.devRef .tc main_v6) := by after_results_simp <;> rfl
theorem keepA2_arg0 : after (opsA2 (F := F)) V (Proc.devRef .tc main_arg0) = V (Proc.devRef .tc main_arg0) := by after_results_simp <;> rfl
theorem keepA2_arg1 : after (opsA2 (F := F)) V (Proc.devRef .tc main_arg1) = V (Proc.devRef .tc main_arg1) := by after_results_simp <;> rfl
theorem keepA2_arg2 : after (opsA2 (F := F)) V (Proc.devRef .tc main_arg2) = V (Proc.devRef .tc main_arg2) := by after_results_simp <;> rfl
theorem keepA2_arg3 : after (opsA2 (F := F)) V (Proc.devRef .tc main_arg3) = V (Proc.devRef .tc main_arg3) := by after_results_simp <;> rfl
theorem keepA2_arg4 : after (opsA2 (F := F)) V (Proc.devRef .tc main_arg4) = V (Proc.devRef .tc main_arg4) := by after_results_simp <;> rfl
theorem keepA2_arg5 : after (opsA2 (F := F)) V (Proc.devRef .tc main_arg5) = V (Proc.devRef .tc main_arg5) := by after_results_simp <;> rfl
theorem keepA2_arg6 : after (opsA2 (F := F)) V (Proc.devRef .tc main_arg6) = V (Proc.devRef .tc main_arg6) := by after_results_simp <;> rfl
theorem keepB_v14 : after (opsB (F := F)) V (Proc.devRef .tc main_v14) = V (Proc.devRef .tc main_v14) := by after_results_simp <;> rfl
theorem keepB_v3 : after (opsB (F := F)) V (Proc.devRef .tc main_v3) = V (Proc.devRef .tc main_v3) := by after_results_simp <;> rfl
theorem keepB_v6 : after (opsB (F := F)) V (Proc.devRef .tc main_v6) = V (Proc.devRef .tc main_v6) := by after_results_simp <;> rfl
theorem keepB_arg2 : after (opsB (F := F)) V (Proc.devRef .tc main_arg2) = V (Proc.devRef .tc main_arg2) := by after_results_simp <;> rfl
theorem keepB_arg3 : after (opsB (F := F)) V (Proc.devRef .tc main_arg3) = V (Proc.devRef .tc main_arg3) := by after_results_simp <;> rfl
theorem keepB_arg4 : after (opsB (F := F)) V (Proc.devRef .tc main_arg4) = V (Proc.devRef .tc main_arg4) := by after_results_simp <;> rfl
theorem keepB_arg5 : after (opsB (F := F)) V (Proc.devRef .tc main_arg5) = V (Proc.devRef .tc main_arg5) := by after_results_simp <;> rfl
theorem keepB_arg6 : after (opsB (F := F)) V (Proc.devRef .tc main_arg6) = V (Proc.devRef .tc main_arg6) := by after_results_simp <;> rfl
theorem keepC_v3 : after (opsC (F := F)) V (Proc.devRef .tc main_v3) = V (Proc.devRef .tc main_v3) := by after_results_simp <;> rfl
theorem keepC_v6 : after (opsC (F := F)) V (Proc.devRef .tc main_v6) = V (Proc.devRef .tc main_v6) := by after_results_simp <;> rfl
theorem keepC_arg2 : after (opsC (F := F)) V (Proc.devRef .tc main_arg2) = V (Proc.devRef .tc main_arg2) := by after_results_simp <;> rfl
theorem keepC_v15 : after (opsC (F := F)) V (Proc.devRef .tc main_v15) = V (Proc.devRef .tc main_v15) := by after_results_simp <;> rfl
theorem keepC_arg3 : after (opsC (F := F)) V (Proc.devRef .tc main_arg3) = V (Proc.devRef .tc main_arg3) := by after_results_simp <;> rfl
theorem keepC_v14 : after (opsC (F := F)) V (Proc.devRef .tc main_v14) = V (Proc.devRef .tc main_v14) := by after_results_simp <;> rfl
theorem keepC_arg4 : after (opsC (F := F)) V (Proc.devRef .tc main_arg4) = V (Proc.devRef .tc main_arg4) := by after_results_simp <;> rfl
theorem keepC_arg5 : after (opsC (F := F)) V (Proc.devRef .tc main_arg5) = V (Proc.devRef .tc main_arg5) := by after_results_simp <;> rfl
theorem keepC_arg6 : after (opsC (F := F)) V (Proc.devRef .tc main_arg6) = V (Proc.devRef .tc main_arg6) := by after_results_simp <;> rfl
theorem keepD_arg3 : after (opsD (F := F)) V (Proc.devRef .tc main_arg3) = V (Proc.devRef .tc main_arg3) := by after_results_simp <;> rfl
theorem keepD_v14 : after (opsD (F := F)) V (Proc.devRef .tc main_v14) = V (Proc.devRef .tc main_v14) := by after_results_simp <;> rfl
theorem keepD_v3 : after (opsD (F := F)) V (Proc.devRef .tc main_v3) = V (Proc.devRef .tc main_v3) := by after_results_simp <;> rfl
theorem keepD_v6 : after (opsD (F := F)) V (Proc.devRef .tc main_v6) = V (Proc.devRef .tc main_v6) := by after_results_simp <;> rfl
theorem keepD_arg4 : after (opsD (F := F)) V (Proc.devRef .tc main_arg4) = V (Proc.devRef .tc main_arg4) := by after_results_simp <;> rfl
theorem keepD_arg5 : after (opsD (F := F)) V (Proc.devRef .tc main_arg5) = V (Proc.devRef .tc main_arg5) := by after_results_simp <;> rfl
theorem keepD_arg6 : after (opsD (F := F)) V (Proc.devRef .tc main_arg6) = V (Proc.devRef .tc main_arg6) := by after_results_simp <;> rfl
theorem keepE_v14 : after (opsE (F := F)) V (Proc.devRef .tc main_v14) = V (Proc.devRef .tc main_v14) := by after_results_simp <;> rfl
theorem keepE_v3 : after (opsE (F := F)) V (Proc.devRef .tc main_v3) = V (Proc.devRef .tc main_v3) := by after_results_simp <;> rfl
theorem keepE_v6 : after (opsE (F := F)) V (Proc.devRef .tc main_v6) = V (Proc.devRef .tc main_v6) := by after_results_simp <;> rfl
theorem keepE_arg4 : after (opsE (F := F)) V (Proc.devRef .tc main_arg4) = V (Proc.devRef .tc main_arg4) := by after_results_simp <;> rfl
theorem keepE_arg5 : after (opsE (F := F)) V (Proc.devRef .tc main_arg5) = V (Proc.devRef .tc main_arg5) := by after_results_simp <;> rfl
theorem keepE_arg6 : after (opsE (F := F)) V (Proc.devRef .tc main_arg6) = V (Proc.devRef .tc main_arg6) := by after_results_simp <;> rfl
theorem keepFn_v3 : after (opsFn (F := F)) V (Proc.devRef .tc main_v3) = V (Proc.devRef .tc main_v3) := by after_results_simp <;> rfl
theorem keepFn_v6 : after (opsFn (F := F)) V (Proc.devRef .tc main_v6) = V (Proc.devRef .tc main_v6) := by after_results_simp <;> rfl
theorem keepFn_arg4 : after (opsFn (F := F)) V (Proc.devRef .tc main_arg4) = V (Proc.devRef .tc main_arg4) := by after_results_simp <;> rfl
theorem keepFn_v48 : after (opsFn (F := F)) V (Proc.devRef .tc main_v48) = V (Proc.devRef .tc main_v48) := by after_results_simp <;> rfl
theorem keepFn_arg5 : after (opsFn (F := F)) V (Proc.devRef .tc main_arg5) = V (Proc.devRef .tc main_arg5) := by after_results_simp <;> rfl
theorem keepFn_arg6 : after (opsFn (F := F)) V (Proc.devRef .tc main_arg6) = V (Proc.devRef .tc main_arg6) := by after_results_simp <;> rfl
theorem keepGl_arg5 : after (opsGl (F := F)) V (Proc.devRef .tc main_arg5) = V (Proc.devRef .tc main_arg5) := by after_results_simp <;> rfl
theorem keepGl_arg6 : after (opsGl (F := F)) V (Proc.devRef .tc main_arg6) = V (Proc.devRef .tc main_arg6) := by after_results_simp <;> rfl
theorem keepH2a0_v84 : after (opsH2a0 (F := F)) V (Proc.devRef .tc main_v84) = V (Proc.devRef .tc main_v84) := by after_results_simp <;> rfl
theorem keepH2a1_v84 : after (opsH2a1 (F := F)) V (Proc.devRef .tc main_v84) = V (Proc.devRef .tc main_v84) := by after_results_simp <;> rfl

/-! ## The whole run -/

/-- The composition of the stages, with the three products as the host computes them. -/
def refG (x0 : FVec F S100000x1433 .f32) (x1 : FVec F S1433x32 .f32) (x2 : FVec F S32 .f32) (x3 : FVec F S32x16 .f32)
    (x4 : FVec F S16 .f32) (x5 : FVec F S16x1433 .f32) (x6 : FVec F S1433 .f32) (x7 : IVec S2x3200000 32) :
    FVec F S100000x1433 .f32 :=
  refLsm (addBias (Host.dotGeneral dot_S100000x16_S16x1433_S100000x1433_1_0_0_1_n_n none
    (layer16 (normF (disqF (F := F) (dstF x7)) (srcF x7) (dstF x7)) (srcF x7) (dstF x7) x4
      (Host.dotGeneral dot_S100000x32_S32x16_S100000x16_1_0_0_1_n_n none
        (layer32 (normF (disqF (F := F) (dstF x7)) (srcF x7) (dstF x7)) (srcF x7) (dstF x7) x2
          (Host.dotGeneral dot_S100000x1433_S1433x32_S100000x32_1_0_0_1_n_n none x0 x1)) x3)) x5) x6)

/-- After the 124 operations the result buffer holds the stages' composition of the arguments. -/
theorem after_ops_result : after (ops (F := F)) V (Proc.devRef .tc main_v85)
    = refG (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split (F := F)]
  simp only [StableHlo.after_append]
  rw [wrH2c_v85]
  rw [wrH2b_v5]
  rw [wrH2a1_v2]
  rw [keepH2a1_v84]
  rw [wrH2a0_v0]
  rw [keepH2a0_v84]
  rw [wrH1_v84]
  rw [wrGl_v80]
  rw [keepGl_arg5]
  rw [keepGl_arg6]
  rw [wrFn_v63]
  rw [keepFn_v3]
  rw [keepFn_v6]
  rw [keepFn_arg4]
  rw [keepFn_v48]
  rw [keepFn_arg5]
  rw [keepFn_arg6]
  rw [wrE_v48]
  rw [keepE_v14]
  rw [keepE_v3]
  rw [keepE_v6]
  rw [keepE_arg4]
  rw [keepE_arg5]
  rw [keepE_arg6]
  rw [wrD_v47]
  rw [keepD_arg3]
  rw [keepD_v14]
  rw [keepD_v3]
  rw [keepD_v6]
  rw [keepD_arg4]
  rw [keepD_arg5]
  rw [keepD_arg6]
  rw [wrC_v30]
  rw [keepC_v3]
  rw [keepC_v6]
  rw [keepC_arg2]
  rw [keepC_v15]
  rw [keepC_arg3]
  rw [keepC_v14]
  rw [keepC_arg4]
  rw [keepC_arg5]
  rw [keepC_arg6]
  rw [wrB_v15]
  rw [keepB_v14]
  rw [keepB_v3]
  rw [keepB_v6]
  rw [keepB_arg2]
  rw [keepB_arg3]
  rw [keepB_arg4]
  rw [keepB_arg5]
  rw [keepB_arg6]
  rw [wrA2_v14]
  rw [keepA2_v3]
  rw [keepA2_v6]
  rw [keepA2_arg0]
  rw [keepA2_arg1]
  rw [keepA2_arg2]
  rw [keepA2_arg3]
  rw [keepA2_arg4]
  rw [keepA2_arg5]
  rw [keepA2_arg6]
  rw [wrA1_v3]
  rw [wrA1_v6]
  rw [keepA1_arg0]
  rw [keepA1_arg1]
  rw [keepA1_arg2]
  rw [keepA1_arg3]
  rw [keepA1_arg4]
  rw [keepA1_arg5]
  rw [keepA1_arg6]
  unfold refG refLsm refRowMax
  rfl

set_option maxRecDepth 8192 in
set_option maxHeartbeats 49600000 in
/-- The run: every weakly fair execution ends with the result at the stages' composition of the arguments as launched, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = refG (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v85).trans (after_ops_result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Hand

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«143425_j3564822856025_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefMath.lean ====
/-
  The reference's products and closing stage, entry by entry on the extended reals.

  The host's product of two arrays is at (p, q) the sum over k of left (p, k) · right (k, q).  The closing stage adds the
  bias to every row of the last product and takes the row-wise log-softmax: the row's maximum (a fold of `max` from −∞,
  folded once more against −∞, which changes nothing), the differences, the sum of their exponentials from 0, the
  logarithm, the second difference.
-/
import proofs.«143425_j3564822856025_1_alg».proof.Proof.Stages
import proofs.«143425_j3564822856025_1_alg».proof.Proof.Spec
import proofs.«143425_j3564822856025_1_alg».proof.Proof.LibHostForms
import proofs.«143425_j3564822856025_1_alg».proof.Proof.LibKeepdims
import proofs.«143425_j3564822856025_1_alg».proof.Proof.LibScatterConst
import Idealize.ShloMosaic.Lib.Pipeline.Value

noncomputable section

open scoped BigOperators

namespace Cert.ReferenceIdeal.Hand

open Cert.ReferenceIdeal Cert.ReferenceIdeal.Gen Cert.Spec
open Idealize.ShloMosaic Idealize.ShloMosaic.ValueIdx

/-- A fold of an operation that is `max` entry by entry is the fold of `max`. -/
theorem fold_max_congr {ι : Type} [DecidableEq ι] (op : EReal → EReal → EReal) [Std.Commutative op] [Std.Associative op]
    (hop : ∀ x y, op x y = max x y) (b : EReal) (f : ι → EReal) (s : Finset ι) : s.fold op b f = s.fold max b f := by
  induction s using Finset.induction_on with
  | empty => rw [Finset.fold_empty, Finset.fold_empty]
  | insert a s ha ih => rw [Finset.fold_insert ha, Finset.fold_insert ha, ih, hop]

/-- The host's exponential and logarithm act entry by entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The first product, entry by entry. -/
theorem dot1_eq (x0 : FVec Ideal S100000x1433 .f32) (x1 : FVec Ideal S1433x32 .f32) :
    Host.dotGeneral dot_S100000x1433_S1433x32_S100000x32_1_0_0_1_n_n none x0 x1
      = mmArr (a := 100000) (n := 1433) (b := 32) x0 x1 := by
  funext i
  obtain ⟨p, q, rfl⟩ : ∃ (p : Fin 100000) (q : Fin 32), i = ix2 p q := ⟨i 0, i 1, eq_ix2 i⟩
  exact Cert.HostForms.host_product_apply (a := 100000) (n := 1433) (b := 32)
    dot_S100000x1433_S1433x32_S100000x32_1_0_0_1_n_n_wf none x0 x1 p q

/-- The second product, entry by entry. -/
theorem dot2_eq (h : FVec Ideal S100000x32 .f32) (x3 : FVec Ideal S32x16 .f32) :
    Host.dotGeneral dot_S100000x32_S32x16_S100000x16_1_0_0_1_n_n none h x3
      = mmArr (a := 100000) (n := 32) (b := 16) h x3 := by
  funext i
  obtain ⟨p, q, rfl⟩ : ∃ (p : Fin 100000) (q : Fin 16), i = ix2 p q := ⟨i 0, i 1, eq_ix2 i⟩
  exact Cert.HostForms.host_product_apply (a := 100000) (n := 32) (b := 16)
    dot_S100000x32_S32x16_S100000x16_1_0_0_1_n_n_wf none h x3 p q

/-- The logits, entry by entry: the row of `h` times the weight matrix, plus the bias. -/
theorem refLogits_apply (h : FVec Ideal S100000x16 .f32) (w : FVec Ideal S16x1433 .f32) (bl : FVec Ideal S1433 .f32)
    (r : Fin 100000) (q : Fin 1433) :
    addBias (F := Ideal) (Host.dotGeneral dot_S100000x16_S16x1433_S100000x1433_1_0_0_1_n_n none h w) bl (ix2 r q)
      = logitRow (a := 100000) (n := 16) (b := 1433) h w (fun d => bl (ix1 d)) r q := by
  unfold addBias logitRow
  rw [addf_apply]
  refine congrArg₂ (· + ·) ?_ ?_
  · exact Cert.HostForms.host_product_apply (a := 100000) (n := 16) (b := 1433)
      dot_S100000x16_S16x1433_S100000x1433_1_0_0_1_n_n_wf none h w r q
  · exact (Cert.HostForms.host_row_repeat_apply (a := 100000) (b := 1433) _ bcast_S1x1433_S100000x1433_0_1 r q).trans
      (Cert.HostForms.host_row_apply (b := 1433) bl bcast_S1433_S1x1433_1 0 q)

theorem refKeepRows_apply (v : FVec Ideal S100000 .f32) (r : Fin 100000) (q : Fin 1433) :
    refKeepRows (F := Ideal) v (ix2 r q) = v (ix1 r) :=
  (Cert.Keepdims.host_column_repeat_apply (a := 100000) (b := 1433) _ bcast_S100000x1_S100000x1433_0_1 r q).trans
    (Cert.Keepdims.host_column_apply (a := 100000) v bcast_S100000_S100000x1_0 r 0)

/-- The row maximum the reference takes is the fold of `max` from −∞ over the row. -/
theorem refRowMax_apply (o : FVec Ideal S100000x1433 .f32) (r : Fin 100000) :
    refRowMax (F := Ideal) o (ix1 r) = (Finset.univ : Finset (Fin 1433)).fold max ninf (fun d => o (ix2 r d)) := by
  have hb : broadcastInDim S100000 ![] bcast_S_S100000 (constant (F := Ideal) S_ .f32 0xFF800000#32) (ix1 r) = ninf :=
    broadcastInDim_apply _ bcast_S_S100000 _ (ix1 r) ix0 (fun a => a.elim0)
  have hr := Cert.ScatterConst.hostReduce_max_rows (a := 100000) (n := 1433) (φ := .f32) o (constant (F := Ideal) S_ .f32 0xFF800000#32)
    reducesTo_S100000x1433_S100000_d1 (by decide) h_S_ r
  have hinit : (constant (F := Ideal) S_ .f32 0xFF800000#32) (Shape.Idx.first h_S_) = ninf := rfl
  unfold refRowMax
  rw [maximumf_apply, hb, hr, hinit, fold_max_congr (FloatOps.maximumf (F := Ideal) (φ := .f32)) (fun _ _ => rfl)]
  exact max_fold_self _ _ _

/-- Entry (r, q) of the reference's log-softmax is the log-softmax of row r at q. -/
theorem refLsm_apply (o : FVec Ideal S100000x1433 .f32) (r : Fin 100000) (q : Fin 1433) :
    refLsm (F := Ideal) o (ix2 r q) = lsmRow (fun d => o (ix2 r d)) q := by
  have hs : ∀ d : Fin 1433, subf o (refKeepRows (F := Ideal) (refRowMax (F := Ideal) o)) (ix2 r d)
      = o (ix2 r d) - (Finset.univ : Finset (Fin 1433)).fold max ninf (fun d => o (ix2 r d)) := fun d => by
    rw [subf_apply, refKeepRows_apply, refRowMax_apply]
  unfold refLsm lsmFinish lsmRow
  rw [subf_apply, hs q,
    Cert.Keepdims.host_column_repeat_apply (a := 100000) (b := 1433) _ bcast_S100000x1_S100000x1433_0_1 r q,
    hostLog_apply,
    Cert.Keepdims.host_column_apply (a := 100000) _ bcast_S100000_S100000x1_0 r 0,
    Cert.Keepdims.host_sum_over_columns_apply (a := 100000) (n := 1433) _ _ reducesTo_S100000x1433_S100000_d1 (by decide) h_S_ r,
    constant_apply, Ideal.ofBits_zero_f32, zero_add]
  refine congrArg (fun z => _ - Ideal.log z) (Finset.sum_congr rfl fun d _ => ?_)
  rw [hostExp_apply, hs d]

/-- The reference's closing stage is the row-wise log-softmax of the logits. -/
theorem refTail_eq (h : FVec Ideal S100000x16 .f32) (w : FVec Ideal S16x1433 .f32) (bl : FVec Ideal S1433 .f32) :
    refLsm (F := Ideal) (addBias (F := Ideal) (Host.dotGeneral dot_S100000x16_S16x1433_S100000x1433_1_0_0_1_n_n none h w) bl)
      = lsmArr (a := 100000) (n := 16) (b := 1433) h w (fun d => bl (ix1 d)) := by
  funext i
  obtain ⟨r, q, rfl⟩ : ∃ (r : Fin 100000) (q : Fin 1433), i = ix2 r q := ⟨i 0, i 1, eq_ix2 i⟩
  rw [refLsm_apply]
  unfold lsmArr
  exact congrArg (lsmRow · q) (funext fun d => refLogits_apply h w bl r d)

end Cert.ReferenceIdeal.Hand

end
-- ==== Proof.Bridge.lean ====
/-
  The two programs compute one function of the arguments.

  The kernel program's result is the row-wise log-softmax of the closing logits over the second layer's output, with the
  three products written as sums; the reference's is the same composition with the host's products and the host's
  log-softmax.  On the extended reals a host product is that sum entry by entry, and the host's closing stage is that
  row-wise log-softmax; the stages in between are the same functions on both sides.
-/
import proofs.«143425_j3564822856025_1_alg».proof.Proof.KValue
import proofs.«143425_j3564822856025_1_alg».proof.Proof.RefValue
import proofs.«143425_j3564822856025_1_alg».proof.Proof.RefMath

set_option maxRecDepth 16384

noncomputable section

namespace Cert.Proof.Hand

open Idealize.ShloMosaic Idealize.ShloMosaic.TcCoe Idealize.SL.Sem

/-- The kernel program's result is the reference's composition of the stages, at the same arguments. -/
theorem kOut_eq_refG (m : (ℓ : Loc Cert.KernelIdeal.nD Cert.KernelIdeal.τ Cert.KernelIdeal.sig) → Buf (Elt Ideal) ℓ)
    (c : Dev Cert.KernelIdeal.nD) :
    Cert.KernelIdeal.Hand.kOut m c
      = Cert.ReferenceIdeal.Hand.refG (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7)) := by
  unfold Cert.ReferenceIdeal.Hand.refG
  rw [Cert.ReferenceIdeal.Hand.dot1_eq, Cert.ReferenceIdeal.Hand.dot2_eq, Cert.ReferenceIdeal.Hand.refTail_eq]
  rfl

end Cert.Proof.Hand

end
-- ==== Proof.lean ====
/-
  The certificate's five claims.

  The program is a two-layer graph convolution followed by a linear layer and a row-wise log-softmax.  The kernel program
  runs the three dense products (and the closing log-softmax, fused with the last product) as tiled launches over blocks
  of rows, and everything else as array operations; the reference runs the same array operations with host products and a
  host log-softmax.  On the extended reals a tile of a product is that tile of the whole product, a row's log-softmax
  involves that row only, and a change of float format is the identity, so both programs end at one function of the
  arguments.  No rewrite was applied when the kernel program was idealized, so that claim is trivial; the three frame
  claims are the programs' runs with the result dropped.
-/
import proofs.«143425_j3564822856025_1_alg».proof.Defs
import proofs.«143425_j3564822856025_1_alg».proof.Proof.Gen.Kernel
import proofs.«143425_j3564822856025_1_alg».proof.Proof.Gen.Kernel.Skeleton
import proofs.«143425_j3564822856025_1_alg».proof.Proof.Gen.Kernel.Launch
import proofs.«143425_j3564822856025_1_alg».proof.Proof.Gen.Kernel.Points
import proofs.«143425_j3564822856025_1_alg».proof.Proof.Gen.Kernel.Frame
import proofs.«143425_j3564822856025_1_alg».proof.Proof.Gen.KernelIdeal
import proofs.«143425_j3564822856025_1_alg».proof.Proof.Gen.KernelIdeal.Skeleton
import proofs.«143425_j3564822856025_1_alg».proof.Proof.Gen.KernelIdeal.Launch
import proofs.«143425_j3564822856025_1_alg».proof.Proof.Gen.KernelIdeal.Points
import proofs.«143425_j3564822856025_1_alg».proof.Proof.Gen.KernelIdeal.Frame
import proofs.«143425_j3564822856025_1_alg».proof.Proof.Gen.ReferenceIdeal
import proofs.«143425_j3564822856025_1_alg».proof.Proof.Gen.Pre_finite_inputs
import proofs.«143425_j3564822856025_1_alg».proof.Proof.KRun
import proofs.«143425_j3564822856025_1_alg».proof.Proof.KValue
import proofs.«143425_j3564822856025_1_alg».proof.Proof.RefValue
import proofs.«143425_j3564822856025_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Both programs end at the stages' composition of the arguments: the kernel program by its run read through its
    segments, the reference by its run read stretch by stretch, from memories that agree on the arguments. -/
theorem algebraic : Cert.algebraic_KernelIdeal_ReferenceIdeal := by
  intro m ρ m' ρ' _ hagree
  refine ⟨fun c => Cert.KernelIdeal.Hand.kOut m c, ?_, ?_⟩
  · exact (θ_run Cert.KernelIdeal.defs _ _).mono
      (fun r h c => ⟨(h c).1.trans (Cert.KernelIdeal.Hand.w11_v67 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Hand.run (F := Ideal) m' ρ')
    obtain ⟨a0, a1, a2, a3, a4, a5, a6, a7⟩ := hagree c
    rw [a0, a1, a2, a3, a4, a5, a6, a7]
    exact (Cert.Proof.Hand.kOut_eq_refG m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
